-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S2x256x256 : Shape := ⟨3, ![2, 256, 256]⟩
abbrev S2x256 : Shape := ⟨2, ![2, 256]⟩
abbrev S256x10 : Shape := ⟨2, ![256, 10]⟩
abbrev S10 : Shape := ⟨1, ![10]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S2x256 .f32) (main_arg7 : FVec F S256x10 .f32) (main_arg8 : FVec F S10 .f32) (main_v13 : IVec S_ 1) (main_v16 : IVec S2x256x256 1) : IVec S_ 1 :=
  let main_c_5 : IVec S_ 1 := constantI S_ 1 1#1
  let main_v17 : IVec S_ 1 := (fun x v => Host.reduce IntOp.andi x v reducesTo_S2x256x256_S_d0_1_2 h_S_) main_v16 main_c_5
  let main_v18 : IVec S_ 1 := andi main_v13 main_v17
  let main_v19 : FVec F S2x256 .f32 := Host.absf main_arg6
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S256x10 .f32 := Host.absf main_arg7
  let main_cst_8 : FVec F S_ .f32 := constant S_ .f32 0x7F800000#32
  let main_v25 : FVec F S256x10 .f32 := broadcastInDim S256x10 ![] bcast_S_S256x10 main_cst_8
  let main_v26 : IVec S256x10 1 := cmpf .olt main_v24 main_v25
  let main_c_9 : IVec S_ 1 := constantI S_ 1 1#1
  let main_v27 : IVec S_ 1 := (fun x v => Host.reduce IntOp.andi x v reducesTo_S256x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : IVec S50000 32) (main_arg3 : FVec F S256x256 .f32) (main_arg4 : FVec F S256 .f32) (main_arg5 : FVec F S2x256x256 .f32) (main_arg6 : FVec F S2x256 .f32) (main_arg7 : FVec F S256x10 .f32) (main_arg8 : FVec F S10 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S2x256x256 .f32 := Host.absf main_arg5
  let main_cst_4 : FVec F S_ .f32 := constant S_ .f32 0x7F800000#32
  let main_v15 : FVec F S2x256x256 .f32 := broadcastInDim S2x256x256 ![] bcast_S_S2x256x256 main_cst_4
  let main_v16 : IVec S2x256x256 1 := cmpf .olt main_v14 main_v15
  fn_part1 (F := F) main_arg6 main_arg7 main_arg8 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S2x256x256 : Shape := ⟨3, ![2, 256, 256]⟩
abbrev S2x256 : Shape := ⟨2, ![2, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S1x256 : Shape := ⟨2, ![1, 256]⟩
abbrev S1x256x256 : Shape := ⟨3, ![1, 256, 256]⟩
abbrev S850000x256 : Shape := ⟨2, ![850000, 256]⟩
abbrev S5000x256 : Shape := ⟨2, ![5000, 256]⟩
abbrev S512x256 : Shape := ⟨2, ![512, 256]⟩
abbrev S50000x1 : Shape := ⟨2, ![50000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 111
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x256, .f32⟩
  | .hbm, ⟨4, _⟩ => ⟨S256, .f32⟩
  | .hbm, ⟨5, _⟩ => ⟨S2x256x256, .f32⟩
  | .hbm, ⟨6, _⟩ => ⟨S2x256, .f32⟩
  | .hbm, ⟨7, _⟩ => ⟨S256x10, .f32⟩
  | .hbm, ⟨8, _⟩ => ⟨S10, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S1x256x256, .f32⟩
  | .hbm, ⟨51, _⟩ => ⟨S256x256, .f32⟩
  | .hbm, ⟨52, _⟩ => ⟨S1x256, .f32⟩
  | .hbm, ⟨53, _⟩ => ⟨S256, .f32⟩
  | .hbm, ⟨54, _⟩ => ⟨S50000x256, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x256, .f32⟩
  | .hbm, ⟨64, _⟩ => ⟨S850000x1, .f32⟩
  | .hbm, ⟨65, _⟩ => ⟨S850000x256, .f32⟩
  | .hbm, ⟨66, _⟩ => ⟨S850000x256, .f32⟩
  | .hbm, ⟨67, _⟩ => ⟨S_, .f32⟩
  | .hbm, ⟨68, _⟩ => ⟨S50000x256, .f32⟩
  | .hbm, ⟨69, _⟩ => ⟨S850000x1, .i32⟩
  | .hbm, ⟨70, _⟩ => ⟨S50000x256, .f32⟩
  | .hbm, ⟨71, _⟩ => ⟨S50000x256, .f32⟩
  | .hbm, ⟨72, _⟩ => ⟨S1x256x256, .f32⟩
  | .hbm, ⟨73, _⟩ => ⟨S256x256, .f32⟩
  | .hbm, ⟨74, _⟩ => ⟨S1x256, .f32⟩
  | .hbm, ⟨75, _⟩ => ⟨S256, .f32⟩
  | .hbm, ⟨76, _⟩ => ⟨S50000x256, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x256, .f32⟩
  | .hbm, ⟨86, _⟩ => ⟨S850000x1, .f32⟩
  | .hbm, ⟨87, _⟩ => ⟨S850000x256, .f32⟩
  | .hbm, ⟨88, _⟩ => ⟨S850000x256, .f32⟩
  | .hbm, ⟨89, _⟩ => ⟨S_, .f32⟩
  | .hbm, ⟨90, _⟩ => ⟨S50000x256, .f32⟩
  | .hbm, ⟨91, _⟩ => ⟨S850000x1, .i32⟩
  | .hbm, ⟨92, _⟩ => ⟨S50000x256, .f32⟩
  | .hbm, ⟨93, _⟩ => ⟨S50000x256, .f32⟩
  | .hbm, ⟨94, _⟩ => ⟨S_, .f32⟩
  | .hbm, ⟨95, _⟩ => ⟨S512x256, .f32⟩
  | .hbm, ⟨96, _⟩ => ⟨S50000x1, .i32⟩
  | .hbm, ⟨97, _⟩ => ⟨S512x256, .f32⟩
  | .hbm, ⟨98, _⟩ => ⟨S_, .f32⟩
  | .hbm, ⟨99, _⟩ => ⟨S50000, .f32⟩
  | .hbm, ⟨100, _⟩ => ⟨S_, .f32⟩
  | .hbm, ⟨101, _⟩ => ⟨S512, .f32⟩
  | .hbm, ⟨102, _⟩ => ⟨S50000x1, .i32⟩
  | .hbm, ⟨103, _⟩ => ⟨S512, .f32⟩
  | .hbm, ⟨104, _⟩ => ⟨S_, .f32⟩
  | .hbm, ⟨105, _⟩ => ⟨S512, .f32⟩
  | .hbm, ⟨106, _⟩ => ⟨S512, .f32⟩
  | .hbm, ⟨107, _⟩ => ⟨S512x1, .f32⟩
  | .hbm, ⟨108, _⟩ => ⟨S512x256, .f32⟩
  | .hbm, ⟨109, _⟩ => ⟨S512x256, .f32⟩
  | .hbm, ⟨110, _⟩ => ⟨S512x10, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S2000x256, .f32⟩
  | .local _ .vmem, ⟨10, _⟩ => ⟨S2000x256, .f32⟩
  | .local _ .vmem, ⟨11, _⟩ => ⟨S5000x256, .f32⟩
  | .local _ .vmem, ⟨12, _⟩ => ⟨S5000x256, .f32⟩
  | .local _ .vmem, ⟨13, _⟩ => ⟨S256, .f32⟩
  | .local _ .vmem, ⟨14, _⟩ => ⟨S5000x256, .f32⟩
  | .local _ .vmem, ⟨15, _⟩ => ⟨S5000x256, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S2000x256, .f32⟩
  | .local _ .vmem, ⟨20, _⟩ => ⟨S2000x256, .f32⟩
  | .local _ .vmem, ⟨21, _⟩ => ⟨S5000x256, .f32⟩
  | .local _ .vmem, ⟨22, _⟩ => ⟨S5000x256, .f32⟩
  | .local _ .vmem, ⟨23, _⟩ => ⟨S256, .f32⟩
  | .local _ .vmem, ⟨24, _⟩ => ⟨S5000x256, .f32⟩
  | .local _ .vmem, ⟨25, _⟩ => ⟨S5000x256, .f32⟩
  | .local _ .vmem, ⟨26, _⟩ => ⟨S512x256, .f32⟩
  | .local _ .vmem, ⟨27, _⟩ => ⟨S256x10, .f32⟩
  | .local _ .vmem, ⟨28, _⟩ => ⟨S10, .f32⟩
  | .local _ .vmem, ⟨29, _⟩ => ⟨S512x10, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_9 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg3_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem1_0 : DmaSem sig := 27
abbrev cc5_sem2_0 : DmaSem sig := 28
abbrev cc5_sem3_0 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S512x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S256x10 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S10 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S512x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  shapeCasts_S2000x256_S2000x256 : S2000x256.ShapeCasts S2000x256
  shapeCasts_S256x256_S256x256 : S256x256.ShapeCasts S256x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  shapeCasts_S256_S256 : S256.ShapeCasts S256
  broadcasts_S1x256_S5000x256 : S1x256.Broadcasts S5000x256
  slices_S2x256x256_S1x256x256_1_0_0 : S2x256x256.Slices ![1, 0, 0] S1x256x256
  slices_S2x256_S1x256_1_0 : S2x256.Slices ![1, 0] S1x256
  bcast_S_S512x256 : S_.BroadcastsInDim S512x256 (![] : Fin 0 → Fin S512x256.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x10_S256x10_0_0 : ∀ a, (![0, 0] : Fin 2 → Nat) a + S256x10.size a ≤ S256x10.size a
  h_S256x10 : 0 < S256x10.numel
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x10_S512x10_1_0_0_1_n_n_wf : DotDims.WF S512x256 S256x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256.size a ≤ S256.size a
  hwx2_1 : ∀ i : grid2.Coords, EltTy.bits .f32 = 32 ∨ (Rect.block (s := S256) S256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256.size a ≤ S256.size a
  hwx4_1 : ∀ i : grid4.Coords, EltTy.bits .f32 = 32 ∨ (Rect.block (s := S256) S256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x256.size a ≤ S50000x256.size a
  hwx4_2 : ∀ i : grid4.Coords, EltTy.bits .f32 = 32 ∨ (Rect.block (s := S50000x256) S5000x256.size (cc4_transform_2 i) (hinb4_2 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S512x256.size a ≤ S512x256.size a
  hwx5_0 : ∀ i : grid5.Coords, EltTy.bits .f32 = 32 ∨ (Rect.block (s := S512x256) S512x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x10.size a ≤ S256x10.size a
  hwx5_1 : ∀ i : grid5.Coords, EltTy.bits .f32 = 32 ∨ (Rect.block (s := S256x10) S256x10.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S10.size a ≤ S10.size a
  hwx5_2 : ∀ i : grid5.Coords, EltTy.bits .f32 = 32 ∨ (Rect.block (s := S10) S10.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S512x10.size a ≤ S512x10.size a
  hwx5_3 : ∀ i : grid5.Coords, EltTy.bits .f32 = 32 ∨ (Rect.block (s := S512x10) S512x10.size (cc5_transform_3 i) (hinb5_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x10_S512x10_1_0_0_1_n_n : DotDims S512x256 S256x10 S512x10 where
  lhsContracting := [1]
  rhsContracting := [0]
  lhsNonContracting := [0]
  rhsNonContracting := [1]
  lhsBatch := []
  rhsBatch := []
  wf := dot_S512x256_S256x10_S512x10_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S5000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v80) S512x256.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S256x10.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S10.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S512x10.size cc5_transform_3 reads5_3 true false 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S2x256x256 : Shape := ⟨3, ![2, 256, 256]⟩
abbrev S2x256 : Shape := ⟨2, ![2, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x256 : Shape := ⟨2, ![1, 256]⟩
abbrev S1x256x256 : Shape := ⟨3, ![1, 256, 256]⟩
abbrev S850000x256 : Shape := ⟨2, ![850000, 256]⟩
abbrev S512x256 : Shape := ⟨2, ![512, 256]⟩
abbrev S50000x1 : Shape := ⟨2, ![50000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 127
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x256, .f32⟩
  | .hbm, ⟨4, _⟩ => ⟨S256, .f32⟩
  | .hbm, ⟨5, _⟩ => ⟨S2x256x256, .f32⟩
  | .hbm, ⟨6, _⟩ => ⟨S2x256, .f32⟩
  | .hbm, ⟨7, _⟩ => ⟨S256x10, .f32⟩
  | .hbm, ⟨8, _⟩ => ⟨S10, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S1x256x256, .f32⟩
  | .hbm, ⟨54, _⟩ => ⟨S256x256, .f32⟩
  | .hbm, ⟨55, _⟩ => ⟨S1x256, .f32⟩
  | .hbm, ⟨56, _⟩ => ⟨S256, .f32⟩
  | .hbm, ⟨57, _⟩ => ⟨S50000x256, .f32⟩
  | .hbm, ⟨58, _⟩ => ⟨S_, .i32⟩
  | .hbm, ⟨59, _⟩ => ⟨S850000, .i32⟩
  | .hbm, ⟨60, _⟩ => ⟨S850000, .i1⟩
  | .hbm, ⟨61, _⟩ => ⟨S_, .i32⟩
  | .hbm, ⟨62, _⟩ => ⟨S850000, .i32⟩
  | .hbm, ⟨63, _⟩ => ⟨S850000, .i32⟩
  | .hbm, ⟨64, _⟩ => ⟨S850000, .i32⟩
  | .hbm, ⟨65, _⟩ => ⟨S850000x1, .i32⟩
  | .hbm, ⟨66, _⟩ => ⟨S850000x256, .f32⟩
  | .hbm, ⟨67, _⟩ => ⟨S850000x1, .f32⟩
  | .hbm, ⟨68, _⟩ => ⟨S850000x256, .f32⟩
  | .hbm, ⟨69, _⟩ => ⟨S850000x256, .f32⟩
  | .hbm, ⟨70, _⟩ => ⟨S_, .f32⟩
  | .hbm, ⟨71, _⟩ => ⟨S50000x256, .f32⟩
  | .hbm, ⟨72, _⟩ => ⟨S850000x1, .i32⟩
  | .hbm, ⟨73, _⟩ => ⟨S50000x256, .f32⟩
  | .hbm, ⟨74, _⟩ => ⟨S1x256, .f32⟩
  | .hbm, ⟨75, _⟩ => ⟨S50000x256, .f32⟩
  | .hbm, ⟨76, _⟩ => ⟨S50000x256, .f32⟩
  | .hbm, ⟨77, _⟩ => ⟨S_, .f32⟩
  | .hbm, ⟨78, _⟩ => ⟨S50000x256, .f32⟩
  | .hbm, ⟨79, _⟩ => ⟨S50000x256, .f32⟩
  | .hbm, ⟨80, _⟩ => ⟨S1x256x256, .f32⟩
  | .hbm, ⟨81, _⟩ => ⟨S256x256, .f32⟩
  | .hbm, ⟨82, _⟩ => ⟨S1x256, .f32⟩
  | .hbm, ⟨83, _⟩ => ⟨S256, .f32⟩
  | .hbm, ⟨84, _⟩ => ⟨S50000x256, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000x256, .f32⟩
  | .hbm, ⟨94, _⟩ => ⟨S850000x1, .f32⟩
  | .hbm, ⟨95, _⟩ => ⟨S850000x256, .f32⟩
  | .hbm, ⟨96, _⟩ => ⟨S850000x256, .f32⟩
  | .hbm, ⟨97, _⟩ => ⟨S_, .f32⟩
  | .hbm, ⟨98, _⟩ => ⟨S50000x256, .f32⟩
  | .hbm, ⟨99, _⟩ => ⟨S850000x1, .i32⟩
  | .hbm, ⟨100, _⟩ => ⟨S50000x256, .f32⟩
  | .hbm, ⟨101, _⟩ => ⟨S1x256, .f32⟩
  | .hbm, ⟨102, _⟩ => ⟨S50000x256, .f32⟩
  | .hbm, ⟨103, _⟩ => ⟨S50000x256, .f32⟩
  | .hbm, ⟨104, _⟩ => ⟨S_, .f32⟩
  | .hbm, ⟨105, _⟩ => ⟨S50000x256, .f32⟩
  | .hbm, ⟨106, _⟩ => ⟨S50000x256, .f32⟩
  | .hbm, ⟨107, _⟩ => ⟨S_, .f32⟩
  | .hbm, ⟨108, _⟩ => ⟨S512x256, .f32⟩
  | .hbm, ⟨109, _⟩ => ⟨S50000x1, .i32⟩
  | .hbm, ⟨110, _⟩ => ⟨S512x256, .f32⟩
  | .hbm, ⟨111, _⟩ => ⟨S_, .f32⟩
  | .hbm, ⟨112, _⟩ => ⟨S50000, .f32⟩
  | .hbm, ⟨113, _⟩ => ⟨S_, .f32⟩
  | .hbm, ⟨114, _⟩ => ⟨S512, .f32⟩
  | .hbm, ⟨115, _⟩ => ⟨S50000x1, .i32⟩
  | .hbm, ⟨116, _⟩ => ⟨S512, .f32⟩
  | .hbm, ⟨117, _⟩ => ⟨S_, .f32⟩
  | .hbm, ⟨118, _⟩ => ⟨S512, .f32⟩
  | .hbm, ⟨119, _⟩ => ⟨S512, .f32⟩
  | .hbm, ⟨120, _⟩ => ⟨S512x1, .f32⟩
  | .hbm, ⟨121, _⟩ => ⟨S512x256, .f32⟩
  | .hbm, ⟨122, _⟩ => ⟨S512x256, .f32⟩
  | .hbm, ⟨123, _⟩ => ⟨S512x10, .f32⟩
  | .hbm, ⟨124, _⟩ => ⟨S1x10, .f32⟩
  | .hbm, ⟨125, _⟩ => ⟨S512x10, .f32⟩
  | .hbm, ⟨126, _⟩ => ⟨S512x10, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_9 : Ref sig .tc := ⟨.hbm, 85, rfl⟩
abbrev main_v61 : Ref sig .tc := ⟨.hbm, 86, rfl⟩
abbrev main_v62 : Ref sig .tc := ⟨.hbm, 87, rfl⟩
abbrev main_c_10 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call2_cst : Ref sig .tc := ⟨.hbm, 104, rfl⟩
abbrev main_call2_v0 : Ref sig .tc := ⟨.hbm, 105, rfl⟩
abbrev main_v77 : Ref sig .tc := ⟨.hbm, 106, rfl⟩
abbrev main_cst_12 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_cst_14 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_15 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  slices_S2x256x256_S1x256x256_1_0_0 : S2x256x256.Slices ![1, 0, 0] S1x256x256
  slices_S2x256_S1x256_1_0 : S2x256.Slices ![1, 0] S1x256
  bcast_S_S512x256 : S_.BroadcastsInDim S512x256 (![] : Fin 0 → Fin S512x256.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x10_S512x10_1_0_0_1_n_n_wf : DotDims.WF S512x256 S256x10 S512x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x10_S512x10_1_0_0_1_n_n : DotDims S512x256 S256x10 S512x10 where
  lhsContracting := [1]
  rhsContracting := [0]
  lhsNonContracting := [0]
  rhsNonContracting := [1]
  lhsBatch := []
  rhsBatch := []
  wf := dot_S512x256_S256x10_S512x10_1_0_0_1_n_n_wf

class Facts : Prop extends Facts₀ where

variable [Facts]
-- ==== Proof.KernelRun.lean ====
/-
  The idealized kernel's run with its result named.

  The program is six kernel launches among stretches of host operations. Running it from any memory, every weakly fair execution
  terminates without a fault; at the end the arguments hold what they held at launch, and the result buffer holds what the fold of
  the segments leaves there: the contents after the last launch (`W14`), read at the result's reference. The other modules
  compute that value segment by segment.
-/
import proofs.«148762_j27951647163108_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the fourteen segments from the launch memory: the final state holds, at every buffer that outlives a launch,
    the last boundary's contents — so the result buffer holds `W14` at its reference, and each argument its launch contents. -/
theorem run_result : θ_run defs (onTc (τ := τ) (main (F := F))) ⟨m, fun _ => 0, ρ⟩ (fun r => ∀ c : Dev nD,
      r.2.mem ((c.tc : Thread nD τ).loc main_v81) = W14 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v81 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.RunValue

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.LibDenseLayers.lean ====
/-
  The three dense layers of a graph network as functions of whole arrays, entry by entry, on the extended reals.

  `affine X W b` is a linear layer: entry (r, c) is row r of X against column c of W, plus b c. `product X W` is the same
  without the bias. `biasRelu X b` adds b c to entry (r, c) and takes the larger of that and zero. Each is stated for any
  extents, so that the same function describes a block of rows and the whole array: a block of rows of a layer's output is
  the layer applied to that block of rows of its input, which is all a row-tiled launch needs.

  Below, each of the two ways such a layer is computed is read at an entry: a block kernel's arithmetic (a matrix
  unit's product of the operands, converted to a narrower float format on the way in — the identity here — into a zero
  accumulator, the bias laid out as one row and repeated down the rows), and the host's (a general dot product, the bias
  broadcast in two steps, the zero of the maximum broadcast from a scalar).
-/
import proofs.«148762_j27951647163108_1_alg».proof.Proof.LibMatDot
import proofs.«148762_j27951647163108_1_alg».proof.Proof.LibAsRow
import proofs.«148762_j27951647163108_1_alg».proof.Proof.LibSlabs
import Idealize.ShloMosaic.PureOps.Ideal.Laws
import Idealize.ShloMosaic.Lib.ValueIdx
import Idealize.ShloMosaic.Lib.ValueLayout
import Idealize.ShloMosaic.Lib.Pipeline.Value

noncomputable section

namespace Cert.Gcn

open Idealize.ShloMosaic Idealize.ShloMosaic.ValueIdx Cert.Lib
open scoped BigOperators

variable {n K M : ℕ}

/-- A linear layer with bias: entry (r, c) is the sum over k of X (r, k) · W (k, c), plus b c. -/
def affine (X : FVec Ideal ⟨2, ![n, K]⟩ .f32) (W : FVec Ideal ⟨2, ![K, M]⟩ .f32) (b : FVec Ideal ⟨1, ![M]⟩ .f32) :
    FVec Ideal ⟨2, ![n, M]⟩ .f32 :=
  fun i => (∑ k : Fin K, X (ix2 (i 0) k) * W (ix2 k (i 1))) + b (ix1 (i 1))

/-- A linear layer without bias: entry (r, c) is the sum over k of X (r, k) · W (k, c). -/
def product (X : FVec Ideal ⟨2, ![n, K]⟩ .f32) (W : FVec Ideal ⟨2, ![K, M]⟩ .f32) : FVec Ideal ⟨2, ![n, M]⟩ .f32 :=
  fun i => ∑ k : Fin K, X (ix2 (i 0) k) * W (ix2 k (i 1))

/-- Bias, then the larger of the sum and zero: entry (r, c) is max (X (r, c) + b c) 0. -/
def biasRelu (X : FVec Ideal ⟨2, ![n, M]⟩ .f32) (b : FVec Ideal ⟨1, ![M]⟩ .f32) : FVec Ideal ⟨2, ![n, M]⟩ .f32 :=
  fun i => max (X i + b (ix1 (i 1))) (Ideal.ofBits .f32 0x00000000#32)

theorem affine_apply (X : FVec Ideal ⟨2, ![n, K]⟩ .f32) (W : FVec Ideal ⟨2, ![K, M]⟩ .f32) (b : FVec Ideal ⟨1, ![M]⟩ .f32)
    (p : Fin n) (q : Fin M) : affine X W b (ix2 p q) = (∑ k : Fin K, X (ix2 p k) * W (ix2 k q)) + b (ix1 q) := rfl

theorem product_apply (X : FVec Ideal ⟨2, ![n, K]⟩ .f32) (W : FVec Ideal ⟨2, ![K, M]⟩ .f32)
    (p : Fin n) (q : Fin M) : product X W (ix2 p q) = ∑ k : Fin K, X (ix2 p k) * W (ix2 k q) := rfl

theorem biasRelu_apply (X : FVec Ideal ⟨2, ![n, M]⟩ .f32) (b : FVec Ideal ⟨1, ![M]⟩ .f32) (p : Fin n) (q : Fin M) :
    biasRelu X b (ix2 p q) = max (X (ix2 p q) + b (ix1 q)) (Ideal.ofBits .f32 0x00000000#32) := rfl

/-! ## A block kernel's arithmetic at an entry -/

/-- The bias as the kernel lays it out — the vector as one row, the row repeated down n rows — reads b c at (r, c). -/
theorem biasRows_apply (b : FVec Ideal ⟨1, ![M]⟩ .f32) (hs : (⟨1, ![M]⟩ : Shape).ShapeCasts ⟨2, ![1, M]⟩)
    (hb : (⟨2, ![1, M]⟩ : Shape).Broadcasts ⟨2, ![n, M]⟩) (p : Fin n) (q : Fin M) :
    broadcastTo ⟨2, ![n, M]⟩ (shapeCast ⟨2, ![1, M]⟩ b hs) hb (ix2 p q) = b (ix1 q) := by
  rw [broadcastTo_1b_ab_apply, shapeCast_a_1a_apply]

/-- The matrix unit's product of the two operands, each converted to a narrower format on the way in, into a zero
    accumulator, plus the bias laid out in rows: the linear layer's entry. -/
theorem kernelAffine_apply (wf : DotDims.WF ⟨2, ![n, K]⟩ ⟨2, ![K, M]⟩ ⟨2, ![n, M]⟩ [1] [0] [0] [1] [] []) {ψ : FTy}
    (h : ψ.bits < FTy.f32.bits) (x0 : FVec Ideal ⟨2, ![n, K]⟩ .f32) (x1 : FVec Ideal ⟨2, ![K, M]⟩ .f32)
    (x2 : FVec Ideal ⟨1, ![M]⟩ .f32) (hs : (⟨1, ![M]⟩ : Shape).ShapeCasts ⟨2, ![1, M]⟩)
    (hb : (⟨2, ![1, M]⟩ : Shape).Broadcasts ⟨2, ![n, M]⟩) (p : Fin n) (q : Fin M) :
    addf (matmul (matDot wf) none (truncf ψ x0 h) (truncf ψ x1 h) (constant ⟨2, ![n, M]⟩ .f32 0x00000000#32))
        (broadcastTo ⟨2, ![n, M]⟩ (shapeCast ⟨2, ![1, M]⟩ x2 hs) hb) (ix2 p q)
      = affine x0 x1 x2 (ix2 p q) := by
  show FloatOps.matmul (matDot wf) none (truncf ψ x0 h) (truncf ψ x1 h) (constant ⟨2, ![n, M]⟩ .f32 0x00000000#32) (ix2 p q)
      + broadcastTo ⟨2, ![n, M]⟩ (shapeCast ⟨2, ![1, M]⟩ x2 hs) hb (ix2 p q) = _
  rw [matmul_plain_zero_apply, biasRows_apply]
  rfl

/-- The same without the bias. -/
theorem kernelProduct_apply (wf : DotDims.WF ⟨2, ![n, K]⟩ ⟨2, ![K, M]⟩ ⟨2, ![n, M]⟩ [1] [0] [0] [1] [] []) {ψ : FTy}
    (h : ψ.bits < FTy.f32.bits) (x0 : FVec Ideal ⟨2, ![n, K]⟩ .f32) (x1 : FVec Ideal ⟨2, ![K, M]⟩ .f32) (p : Fin n) (q : Fin M) :
    matmul (matDot wf) none (truncf ψ x0 h) (truncf ψ x1 h) (constant ⟨2, ![n, M]⟩ .f32 0x00000000#32) (ix2 p q)
      = product x0 x1 (ix2 p q) := by
  show FloatOps.matmul (matDot wf) none (truncf ψ x0 h) (truncf ψ x1 h) (constant ⟨2, ![n, M]⟩ .f32 0x00000000#32) (ix2 p q) = _
  rw [matmul_plain_zero_apply]
  rfl

/-- The block plus the bias laid out in rows, against a zero repeated over the block. -/
theorem kernelBiasRelu_apply (x0 : FVec Ideal ⟨2, ![n, M]⟩ .f32) (x1 : FVec Ideal ⟨1, ![M]⟩ .f32)
    (hs : (⟨1, ![M]⟩ : Shape).ShapeCasts ⟨2, ![1, M]⟩) (hb : (⟨2, ![1, M]⟩ : Shape).Broadcasts ⟨2, ![n, M]⟩) (p : Fin n) (q : Fin M) :
    maximumf (addf x0 (broadcastTo ⟨2, ![n, M]⟩ (shapeCast ⟨2, ![1, M]⟩ x1 hs) hb))
        (broadcast ⟨2, ![n, M]⟩ (Scalar.ofBits (F := Ideal) .f32 0x00000000#32)) (ix2 p q)
      = biasRelu x0 x1 (ix2 p q) := by
  show max (x0 (ix2 p q) + broadcastTo ⟨2, ![n, M]⟩ (shapeCast ⟨2, ![1, M]⟩ x1 hs) hb (ix2 p q)) _ = _
  rw [biasRows_apply]
  rfl

/-! ## The host's arithmetic at an entry -/

/-- The bias as the host lays it out — the vector broadcast into one row, the row broadcast down n rows — reads b c. -/
theorem hostBias_apply (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2)) (p : Fin n) (q : Fin M) :
    broadcastInDim ⟨2, ![n, M]⟩ ![0, 1] h2 (broadcastInDim ⟨2, ![1, M]⟩ ![1] h1 b) (ix2 p q) = b (ix1 q) := by
  rw [rows_of_oneRow, broadcastInDim_eq_asRow]
  rfl

/-- The host's general dot product plus the bias broadcast: the linear layer, as whole arrays. -/
theorem hostAffine (wf : DotDims.WF ⟨2, ![n, K]⟩ ⟨2, ![K, M]⟩ ⟨2, ![n, M]⟩ [1] [0] [0] [1] [] [])
    (X : FVec Ideal ⟨2, ![n, K]⟩ .f32) (W : FVec Ideal ⟨2, ![K, M]⟩ .f32) (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2)) :
    addf (Host.dotGeneral (F := Ideal) (matDot wf) none X W)
        (broadcastInDim ⟨2, ![n, M]⟩ ![0, 1] h2 (broadcastInDim ⟨2, ![1, M]⟩ ![1] h1 b)) = affine X W b := by
  funext i
  obtain ⟨p, q, rfl⟩ : ∃ (p : Fin n) (q : Fin M), i = ix2 p q := ⟨i 0, i 1, eq_ix2 i⟩
  show FloatOps.dotGeneral (matDot wf) none _ X W (ix2 p q)
      + broadcastInDim ⟨2, ![n, M]⟩ ![0, 1] h2 (broadcastInDim ⟨2, ![1, M]⟩ ![1] h1 b) (ix2 p q) = _
  rw [dotGeneral_plain_apply, hostBias_apply]
  rfl

/-- The host's general dot product alone. -/
theorem hostProduct (wf : DotDims.WF ⟨2, ![n, K]⟩ ⟨2, ![K, M]⟩ ⟨2, ![n, M]⟩ [1] [0] [0] [1] [] [])
    (X : FVec Ideal ⟨2, ![n, K]⟩ .f32) (W : FVec Ideal ⟨2, ![K, M]⟩ .f32) :
    Host.dotGeneral (F := Ideal) (matDot wf) none X W = product X W := by
  funext i
  obtain ⟨p, q, rfl⟩ : ∃ (p : Fin n) (q : Fin M), i = ix2 p q := ⟨i 0, i 1, eq_ix2 i⟩
  show FloatOps.dotGeneral (matDot wf) none _ X W (ix2 p q) = _
  rw [dotGeneral_plain_apply]
  rfl

/-- The host's sum with the broadcast bias, then its maximum with a zero broadcast from a scalar. -/
theorem hostBiasRelu (X : FVec Ideal ⟨2, ![n, M]⟩ .f32) (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2))
    (h0 : (⟨0, ![]⟩ : Shape).BroadcastsInDim ⟨2, ![n, M]⟩ (![] : Fin 0 → Fin 2)) :
    maximumf (addf X (broadcastInDim ⟨2, ![n, M]⟩ ![0, 1] h2 (broadcastInDim ⟨2, ![1, M]⟩ ![1] h1 b)))
        (broadcastInDim ⟨2, ![n, M]⟩ ![] h0 (constant (F := Ideal) ⟨0, ![]⟩ .f32 0x00000000#32)) = biasRelu X b := by
  funext i
  obtain ⟨p, q, rfl⟩ : ∃ (p : Fin n) (q : Fin M), i = ix2 p q := ⟨i 0, i 1, eq_ix2 i⟩
  show max (X (ix2 p q) + broadcastInDim ⟨2, ![n, M]⟩ ![0, 1] h2 (broadcastInDim ⟨2, ![1, M]⟩ ![1] h1 b) (ix2 p q))
      (broadcastInDim ⟨2, ![n, M]⟩ ![] h0 (constant (F := Ideal) ⟨0, ![]⟩ .f32 0x00000000#32) (ix2 p q)) = _
  rw [hostBias_apply]
  rfl

end Cert.Gcn

end
-- ==== Proof.Host.lean ====
/-
  The host operations between the launches, one stretch at a time, read against the reference's stages.

  Each stretch is a straight line of array operations; what one of its result buffers holds afterwards is those operations'
  composition applied to what the stretch found in the buffers it reads. The two programs spell the graph part the same way —
  the edge lists with the self loops appended, the degree normalisation, the gather of source rows, the scaling by the edge
  weight, the scatter-add into target rows, the mean pool — so each kernel-side result is the reference's stage of the same
  name once the buffers the stretch reads hold the reference's earlier stages. The stretches are stated over any contents
  `Vv` of the buffers at their start.
-/
import proofs.«148762_j27951647163108_1_alg».proof.Proof.Gen.KernelIdeal.Launch
import proofs.«148762_j27951647163108_1_alg».proof.Proof.RefRead
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable (Vv : Valuation τ sig (Elt Ideal))

/-! ## Before the first launch: the edge lists and the edge weights -/

/-- The source list: the first row of the edge index followed by the self loops. -/
theorem rows0 : StableHlo.after hostOps0 Vv (Proc.devRef .tc main_v3) = Cert.ReferenceIdeal.Read.val_main_v3 (F := Ideal) (Vv (Proc.devRef .tc main_arg1)) := by
  after_results; rfl

/-- The target list: the second row of the edge index followed by the self loops. -/
theorem cols0 : StableHlo.after hostOps0 Vv (Proc.devRef .tc main_v6) = Cert.ReferenceIdeal.Read.val_main_v6 (F := Ideal) (Vv (Proc.devRef .tc main_arg1)) := by
  after_results; rfl

/-- Which nodes have positive degree. -/
theorem degpos0 : StableHlo.after hostOps0 Vv (Proc.devRef .tc main_v12) = Cert.ReferenceIdeal.Read.val_main_v12 (F := Ideal) (Vv (Proc.devRef .tc main_arg1)) := by
  after_results; rfl

/-- The inverse square roots of the degrees. -/
theorem rsqrt0 : StableHlo.after hostOps0 Vv (Proc.devRef .tc main_v13) = Cert.ReferenceIdeal.Read.val_main_v13 (F := Ideal) (Vv (Proc.devRef .tc main_arg1)) := by
  after_results; rfl

/-- The zero that replaces them where the degree is not positive. -/
theorem zero0 : StableHlo.after hostOps0 Vv (Proc.devRef .tc main_cst_2) = Cert.ReferenceIdeal.Read.val_main_cst_2 (F := Ideal) := by
  after_results; rfl

/-- The choice between the two, node by node, in the stretch's own terms: the called function's three operations composed. -/
theorem dinv0_ops : StableHlo.after hostOps0_1 Vv (Proc.devRef .tc main_v14)
    = select (Vv (Proc.devRef .tc main_v12)) (Vv (Proc.devRef .tc main_v13)) (broadcastInDim S50000 ![] bcast_S_S50000 (Vv (Proc.devRef .tc main_cst_2))) := by
  after_results; rfl

/-- The choice between the two, node by node. -/
theorem dinv0 (a1 : (⟨Cert.ReferenceIdeal.S2x800000, .i32⟩ : BufTy).Contents (Elt Ideal))
    (h12 : Vv (Proc.devRef .tc main_v12) = Cert.ReferenceIdeal.Read.val_main_v12 (F := Ideal) a1) (h13 : Vv (Proc.devRef .tc main_v13) = Cert.ReferenceIdeal.Read.val_main_v13 (F := Ideal) a1)
    (hz : Vv (Proc.devRef .tc main_cst_2) = Cert.ReferenceIdeal.Read.val_main_cst_2 (F := Ideal)) :
    StableHlo.after hostOps0_1 Vv (Proc.devRef .tc main_v14) = Cert.ReferenceIdeal.Read.val_main_v14 (F := Ideal) a1 := by
  rw [dinv0_ops, h12, h13, hz]
  simp only [Cert.ReferenceIdeal.Read.val_main_v14, Cert.ReferenceIdeal.Read.val_main_call0_v1, Cert.ReferenceIdeal.Read.val_main_call0_v0]
  rfl

set_option maxHeartbeats 1600000 in
/-- The edge weights: the product of the two end points' normalisations. -/
theorem norm0 (a1 : (⟨Cert.ReferenceIdeal.S2x800000, .i32⟩ : BufTy).Contents (Elt Ideal))
    (h14 : Vv (Proc.devRef .tc main_v14) = Cert.ReferenceIdeal.Read.val_main_v14 (F := Ideal) a1) (h3 : Vv (Proc.devRef .tc main_v3) = Cert.ReferenceIdeal.Read.val_main_v3 (F := Ideal) a1)
    (h6 : Vv (Proc.devRef .tc main_v6) = Cert.ReferenceIdeal.Read.val_main_v6 (F := Ideal) a1) :
    StableHlo.after hostOps0_2 Vv (Proc.devRef .tc main_v29) = Cert.ReferenceIdeal.Read.val_main_v29 (F := Ideal) a1 := by
  after_results; rw [h14, h3, h6]
  simp only [Cert.ReferenceIdeal.Read.val_main_v29, Cert.ReferenceIdeal.Read.val_main_v21, Cert.ReferenceIdeal.Read.val_main_v28, Cert.ReferenceIdeal.Read.val_main_v20, Cert.ReferenceIdeal.Read.val_main_v19, Cert.ReferenceIdeal.Read.val_main_v16, Cert.ReferenceIdeal.Read.val_main_v15, Cert.ReferenceIdeal.Read.val_main_c, Cert.ReferenceIdeal.Read.val_main_v18, Cert.ReferenceIdeal.Read.val_main_v17, Cert.ReferenceIdeal.Read.val_main_c_3, Cert.ReferenceIdeal.Read.val_main_v27, Cert.ReferenceIdeal.Read.val_main_v26, Cert.ReferenceIdeal.Read.val_main_v23, Cert.ReferenceIdeal.Read.val_main_v22, Cert.ReferenceIdeal.Read.val_main_c_4, Cert.ReferenceIdeal.Read.val_main_v25, Cert.ReferenceIdeal.Read.val_main_v24, Cert.ReferenceIdeal.Read.val_main_c_5]
  rfl

/-! ## Between the launches -/

/-- The first layer's weights: slab 0 of the stacked weights. -/
theorem weights1 : StableHlo.after hostOps1 Vv (Proc.devRef .tc main_v32) = Cert.ReferenceIdeal.Read.val_main_v35 (F := Ideal) (Vv (Proc.devRef .tc main_arg5)) := by
  after_results; rfl

/-- The first layer's bias: row 0 of the stacked biases. -/
theorem bias1 : StableHlo.after hostOps1 Vv (Proc.devRef .tc main_v34) = Cert.ReferenceIdeal.Read.val_main_v37 (F := Ideal) (Vv (Proc.devRef .tc main_arg6)) := by
  after_results; rfl

set_option maxHeartbeats 1600000 in
/-- The first aggregation: rows gathered at the sources, scaled by the edge weights, added into the target rows. -/
theorem agg2 (a0 : (⟨Cert.ReferenceIdeal.S50000x256, .f32⟩ : BufTy).Contents (Elt Ideal)) (a1 : (⟨Cert.ReferenceIdeal.S2x800000, .i32⟩ : BufTy).Contents (Elt Ideal)) (a3 : (⟨Cert.ReferenceIdeal.S256x256, .f32⟩ : BufTy).Contents (Elt Ideal)) (a4 : (⟨Cert.ReferenceIdeal.S256, .f32⟩ : BufTy).Contents (Elt Ideal)) (a5 : (⟨Cert.ReferenceIdeal.S2x256x256, .f32⟩ : BufTy).Contents (Elt Ideal))
    (hh : Vv (Proc.devRef .tc main_v35) = Cert.ReferenceIdeal.Read.val_main_v38 (F := Ideal) a0 a3 a4 a5) (h3 : Vv (Proc.devRef .tc main_v3) = Cert.ReferenceIdeal.Read.val_main_v3 (F := Ideal) a1)
    (h6 : Vv (Proc.devRef .tc main_v6) = Cert.ReferenceIdeal.Read.val_main_v6 (F := Ideal) a1) (h29 : Vv (Proc.devRef .tc main_v29) = Cert.ReferenceIdeal.Read.val_main_v29 (F := Ideal) a1) :
    StableHlo.after hostOps2 Vv (Proc.devRef .tc main_v48) = Cert.ReferenceIdeal.Read.val_main_v51 (F := Ideal) a0 a1 a3 a4 a5 := by
  after_results; rw [hh, h3, h6, h29]
  simp only [Cert.ReferenceIdeal.Read.val_main_v51, Cert.ReferenceIdeal.Read.val_main_v49, Cert.ReferenceIdeal.Read.val_main_v50, Cert.ReferenceIdeal.Read.val_main_v48, Cert.ReferenceIdeal.Read.val_main_v45, Cert.ReferenceIdeal.Read.val_main_v47, Cert.ReferenceIdeal.Read.val_main_v46, Cert.ReferenceIdeal.Read.val_main_v44, Cert.ReferenceIdeal.Read.val_main_v43, Cert.ReferenceIdeal.Read.val_main_v40, Cert.ReferenceIdeal.Read.val_main_v42, Cert.ReferenceIdeal.Read.val_main_v39, Cert.ReferenceIdeal.Read.val_main_v41, Cert.ReferenceIdeal.Read.val_main_cst_8, Cert.ReferenceIdeal.Read.val_main_c_6, Cert.ReferenceIdeal.Read.val_main_c_7]
  rfl

/-- The second layer's weights: slab 1 of the stacked weights. -/
theorem weights3 : StableHlo.after hostOps3 Vv (Proc.devRef .tc main_v51) = Cert.ReferenceIdeal.Read.val_main_v57 (F := Ideal) (Vv (Proc.devRef .tc main_arg5)) := by
  after_results; rfl

/-- The second layer's bias: row 1 of the stacked biases. -/
theorem bias3 : StableHlo.after hostOps3 Vv (Proc.devRef .tc main_v53) = Cert.ReferenceIdeal.Read.val_main_v59 (F := Ideal) (Vv (Proc.devRef .tc main_arg6)) := by
  after_results; rfl

set_option maxHeartbeats 1600000 in
/-- The second aggregation. -/
theorem agg4 (a0 : (⟨Cert.ReferenceIdeal.S50000x256, .f32⟩ : BufTy).Contents (Elt Ideal)) (a1 : (⟨Cert.ReferenceIdeal.S2x800000, .i32⟩ : BufTy).Contents (Elt Ideal)) (a3 : (⟨Cert.ReferenceIdeal.S256x256, .f32⟩ : BufTy).Contents (Elt Ideal)) (a4 : (⟨Cert.ReferenceIdeal.S256, .f32⟩ : BufTy).Contents (Elt Ideal)) (a5 : (⟨Cert.ReferenceIdeal.S2x256x256, .f32⟩ : BufTy).Contents (Elt Ideal)) (a6 : (⟨Cert.ReferenceIdeal.S2x256, .f32⟩ : BufTy).Contents (Elt Ideal))
    (hh : Vv (Proc.devRef .tc main_v54) = Cert.ReferenceIdeal.Read.val_main_v60 (F := Ideal) a0 a1 a3 a4 a5 a6) (h3 : Vv (Proc.devRef .tc main_v3) = Cert.ReferenceIdeal.Read.val_main_v3 (F := Ideal) a1)
    (h6 : Vv (Proc.devRef .tc main_v6) = Cert.ReferenceIdeal.Read.val_main_v6 (F := Ideal) a1) (h29 : Vv (Proc.devRef .tc main_v29) = Cert.ReferenceIdeal.Read.val_main_v29 (F := Ideal) a1) :
    StableHlo.after hostOps4 Vv (Proc.devRef .tc main_v67) = Cert.ReferenceIdeal.Read.val_main_v73 (F := Ideal) a0 a1 a3 a4 a5 a6 := by
  after_results; rw [hh, h3, h6, h29]
  simp only [Cert.ReferenceIdeal.Read.val_main_v73, Cert.ReferenceIdeal.Read.val_main_v71, Cert.ReferenceIdeal.Read.val_main_v72, Cert.ReferenceIdeal.Read.val_main_v70, Cert.ReferenceIdeal.Read.val_main_v67, Cert.ReferenceIdeal.Read.val_main_v69, Cert.ReferenceIdeal.Read.val_main_v68, Cert.ReferenceIdeal.Read.val_main_v66, Cert.ReferenceIdeal.Read.val_main_v65, Cert.ReferenceIdeal.Read.val_main_v62, Cert.ReferenceIdeal.Read.val_main_v64, Cert.ReferenceIdeal.Read.val_main_v61, Cert.ReferenceIdeal.Read.val_main_v63, Cert.ReferenceIdeal.Read.val_main_cst_11, Cert.ReferenceIdeal.Read.val_main_c_9, Cert.ReferenceIdeal.Read.val_main_c_10]
  rfl

set_option maxHeartbeats 1600000 in
/-- The mean pool: node rows added into their graph's row, divided by the graph's node count (at least one). -/
theorem pool5 (a0 : (⟨Cert.ReferenceIdeal.S50000x256, .f32⟩ : BufTy).Contents (Elt Ideal)) (a1 : (⟨Cert.ReferenceIdeal.S2x800000, .i32⟩ : BufTy).Contents (Elt Ideal)) (a2 : (⟨Cert.ReferenceIdeal.S50000, .i32⟩ : BufTy).Contents (Elt Ideal)) (a3 : (⟨Cert.ReferenceIdeal.S256x256, .f32⟩ : BufTy).Contents (Elt Ideal)) (a4 : (⟨Cert.ReferenceIdeal.S256, .f32⟩ : BufTy).Contents (Elt Ideal)) (a5 : (⟨Cert.ReferenceIdeal.S2x256x256, .f32⟩ : BufTy).Contents (Elt Ideal)) (a6 : (⟨Cert.ReferenceIdeal.S2x256, .f32⟩ : BufTy).Contents (Elt Ideal))
    (hh : Vv (Proc.devRef .tc main_v68) = Cert.ReferenceIdeal.Read.val_main_v77 (F := Ideal) a0 a1 a3 a4 a5 a6) (h2 : Vv (Proc.devRef .tc main_arg2) = a2) :
    StableHlo.after hostOps5 Vv (Proc.devRef .tc main_v80) = Cert.ReferenceIdeal.Read.val_main_v89 (F := Ideal) a0 a1 a2 a3 a4 a5 a6 := by
  after_results; rw [hh, h2]
  simp only [Cert.ReferenceIdeal.Read.val_main_v89, Cert.ReferenceIdeal.Read.val_main_v80, Cert.ReferenceIdeal.Read.val_main_v78, Cert.ReferenceIdeal.Read.val_main_v79, Cert.ReferenceIdeal.Read.val_main_v88, Cert.ReferenceIdeal.Read.val_main_v87, Cert.ReferenceIdeal.Read.val_main_v86, Cert.ReferenceIdeal.Read.val_main_v84, Cert.ReferenceIdeal.Read.val_main_v82, Cert.ReferenceIdeal.Read.val_main_v83, Cert.ReferenceIdeal.Read.val_main_v81, Cert.ReferenceIdeal.Read.val_main_v85, Cert.ReferenceIdeal.Read.val_main_cst_12, Cert.ReferenceIdeal.Read.val_main_cst_13, Cert.ReferenceIdeal.Read.val_main_cst_14, Cert.ReferenceIdeal.Read.val_main_cst_15]
  rfl

/-! ## What a stretch leaves alone

A buffer no operation of a stretch writes holds afterwards what it held before. -/

theorem keep_hostOps0_main_arg0 : StableHlo.after hostOps0 Vv (Proc.devRef .tc main_arg0) = Vv (Proc.devRef .tc main_arg0) := by after_results
theorem keep_hostOps0_main_arg2 : StableHlo.after hostOps0 Vv (Proc.devRef .tc main_arg2) = Vv (Proc.devRef .tc main_arg2) := by after_results
theorem keep_hostOps0_main_arg3 : StableHlo.after hostOps0 Vv (Proc.devRef .tc main_arg3) = Vv (Proc.devRef .tc main_arg3) := by after_results
theorem keep_hostOps0_main_arg4 : StableHlo.after hostOps0 Vv (Proc.devRef .tc main_arg4) = Vv (Proc.devRef .tc main_arg4) := by after_results
theorem keep_hostOps0_main_arg5 : StableHlo.after hostOps0 Vv (Proc.devRef .tc main_arg5) = Vv (Proc.devRef .tc main_arg5) := by after_results
theorem keep_hostOps0_main_arg6 : StableHlo.after hostOps0 Vv (Proc.devRef .tc main_arg6) = Vv (Proc.devRef .tc main_arg6) := by after_results
theorem keep_hostOps0_main_arg7 : StableHlo.after hostOps0 Vv (Proc.devRef .tc main_arg7) = Vv (Proc.devRef .tc main_arg7) := by after_results
theorem keep_hostOps0_main_arg8 : StableHlo.after hostOps0 Vv (Proc.devRef .tc main_arg8) = Vv (Proc.devRef .tc main_arg8) := by after_results
theorem keep_hostOps0_1_main_v3 : StableHlo.after hostOps0_1 Vv (Proc.devRef .tc main_v3) = Vv (Proc.devRef .tc main_v3) := by after_results
theorem keep_hostOps0_1_main_v6 : StableHlo.after hostOps0_1 Vv (Proc.devRef .tc main_v6) = Vv (Proc.devRef .tc main_v6) := by after_results
theorem keep_hostOps0_1_main_arg0 : StableHlo.after hostOps0_1 Vv (Proc.devRef .tc main_arg0) = Vv (Proc.devRef .tc main_arg0) := by after_results
theorem keep_hostOps0_1_main_arg2 : StableHlo.after hostOps0_1 Vv (Proc.devRef .tc main_arg2) = Vv (Proc.devRef .tc main_arg2) := by after_results
theorem keep_hostOps0_1_main_arg3 : StableHlo.after hostOps0_1 Vv (Proc.devRef .tc main_arg3) = Vv (Proc.devRef .tc main_arg3) := by after_results
theorem keep_hostOps0_1_main_arg4 : StableHlo.after hostOps0_1 Vv (Proc.devRef .tc main_arg4) = Vv (Proc.devRef .tc main_arg4) := by after_results
theorem keep_hostOps0_1_main_arg5 : StableHlo.after hostOps0_1 Vv (Proc.devRef .tc main_arg5) = Vv (Proc.devRef .tc main_arg5) := by after_results
theorem keep_hostOps0_1_main_arg6 : StableHlo.after hostOps0_1 Vv (Proc.devRef .tc main_arg6) = Vv (Proc.devRef .tc main_arg6) := by after_results
theorem keep_hostOps0_1_main_arg7 : StableHlo.after hostOps0_1 Vv (Proc.devRef .tc main_arg7) = Vv (Proc.devRef .tc main_arg7) := by after_results
theorem keep_hostOps0_1_main_arg8 : StableHlo.after hostOps0_1 Vv (Proc.devRef .tc main_arg8) = Vv (Proc.devRef .tc main_arg8) := by after_results
theorem keep_hostOps0_2_main_v3 : StableHlo.after hostOps0_2 Vv (Proc.devRef .tc main_v3) = Vv (Proc.devRef .tc main_v3) := by after_results
theorem keep_hostOps0_2_main_v6 : StableHlo.after hostOps0_2 Vv (Proc.devRef .tc main_v6) = Vv (Proc.devRef .tc main_v6) := by after_results
theorem keep_hostOps0_2_main_arg0 : StableHlo.after hostOps0_2 Vv (Proc.devRef .tc main_arg0) = Vv (Proc.devRef .tc main_arg0) := by after_results
theorem keep_hostOps0_2_main_arg2 : StableHlo.after hostOps0_2 Vv (Proc.devRef .tc main_arg2) = Vv (Proc.devRef .tc main_arg2) := by after_results
theorem keep_hostOps0_2_main_arg3 : StableHlo.after hostOps0_2 Vv (Proc.devRef .tc main_arg3) = Vv (Proc.devRef .tc main_arg3) := by after_results
theorem keep_hostOps0_2_main_arg4 : StableHlo.after hostOps0_2 Vv (Proc.devRef .tc main_arg4) = Vv (Proc.devRef .tc main_arg4) := by after_results
theorem keep_hostOps0_2_main_arg5 : StableHlo.after hostOps0_2 Vv (Proc.devRef .tc main_arg5) = Vv (Proc.devRef .tc main_arg5) := by after_results
theorem keep_hostOps0_2_main_arg6 : StableHlo.after hostOps0_2 Vv (Proc.devRef .tc main_arg6) = Vv (Proc.devRef .tc main_arg6) := by after_results
theorem keep_hostOps0_2_main_arg7 : StableHlo.after hostOps0_2 Vv (Proc.devRef .tc main_arg7) = Vv (Proc.devRef .tc main_arg7) := by after_results
theorem keep_hostOps0_2_main_arg8 : StableHlo.after hostOps0_2 Vv (Proc.devRef .tc main_arg8) = Vv (Proc.devRef .tc main_arg8) := by after_results
theorem keep_hostOps1_main_v3 : StableHlo.after hostOps1 Vv (Proc.devRef .tc main_v3) = Vv (Proc.devRef .tc main_v3) := by after_results
theorem keep_hostOps1_main_v6 : StableHlo.after hostOps1 Vv (Proc.devRef .tc main_v6) = Vv (Proc.devRef .tc main_v6) := by after_results
theorem keep_hostOps1_main_v29 : StableHlo.after hostOps1 Vv (Proc.devRef .tc main_v29) = Vv (Proc.devRef .tc main_v29) := by after_results
theorem keep_hostOps1_main_v30 : StableHlo.after hostOps1 Vv (Proc.devRef .tc main_v30) = Vv (Proc.devRef .tc main_v30) := by after_results
theorem keep_hostOps1_main_arg2 : StableHlo.after hostOps1 Vv (Proc.devRef .tc main_arg2) = Vv (Proc.devRef .tc main_arg2) := by after_results
theorem keep_hostOps1_main_arg5 : StableHlo.after hostOps1 Vv (Proc.devRef .tc main_arg5) = Vv (Proc.devRef .tc main_arg5) := by after_results
theorem keep_hostOps1_main_arg6 : StableHlo.after hostOps1 Vv (Proc.devRef .tc main_arg6) = Vv (Proc.devRef .tc main_arg6) := by after_results
theorem keep_hostOps1_main_arg7 : StableHlo.after hostOps1 Vv (Proc.devRef .tc main_arg7) = Vv (Proc.devRef .tc main_arg7) := by after_results
theorem keep_hostOps1_main_arg8 : StableHlo.after hostOps1 Vv (Proc.devRef .tc main_arg8) = Vv (Proc.devRef .tc main_arg8) := by after_results
theorem keep_hostOps2_main_v3 : StableHlo.after hostOps2 Vv (Proc.devRef .tc main_v3) = Vv (Proc.devRef .tc main_v3) := by after_results
theorem keep_hostOps2_main_v6 : StableHlo.after hostOps2 Vv (Proc.devRef .tc main_v6) = Vv (Proc.devRef .tc main_v6) := by after_results
theorem keep_hostOps2_main_v29 : StableHlo.after hostOps2 Vv (Proc.devRef .tc main_v29) = Vv (Proc.devRef .tc main_v29) := by after_results
theorem keep_hostOps2_main_v34 : StableHlo.after hostOps2 Vv (Proc.devRef .tc main_v34) = Vv (Proc.devRef .tc main_v34) := by after_results
theorem keep_hostOps2_main_arg2 : StableHlo.after hostOps2 Vv (Proc.devRef .tc main_arg2) = Vv (Proc.devRef .tc main_arg2) := by after_results
theorem keep_hostOps2_main_arg5 : StableHlo.after hostOps2 Vv (Proc.devRef .tc main_arg5) = Vv (Proc.devRef .tc main_arg5) := by after_results
theorem keep_hostOps2_main_arg6 : StableHlo.after hostOps2 Vv (Proc.devRef .tc main_arg6) = Vv (Proc.devRef .tc main_arg6) := by after_results
theorem keep_hostOps2_main_arg7 : StableHlo.after hostOps2 Vv (Proc.devRef .tc main_arg7) = Vv (Proc.devRef .tc main_arg7) := by after_results
theorem keep_hostOps2_main_arg8 : StableHlo.after hostOps2 Vv (Proc.devRef .tc main_arg8) = Vv (Proc.devRef .tc main_arg8) := by after_results
theorem keep_hostOps3_main_v3 : StableHlo.after hostOps3 Vv (Proc.devRef .tc main_v3) = Vv (Proc.devRef .tc main_v3) := by after_results
theorem keep_hostOps3_main_v6 : StableHlo.after hostOps3 Vv (Proc.devRef .tc main_v6) = Vv (Proc.devRef .tc main_v6) := by after_results
theorem keep_hostOps3_main_v29 : StableHlo.after hostOps3 Vv (Proc.devRef .tc main_v29) = Vv (Proc.devRef .tc main_v29) := by after_results
theorem keep_hostOps3_main_v49 : StableHlo.after hostOps3 Vv (Proc.devRef .tc main_v49) = Vv (Proc.devRef .tc main_v49) := by after_results
theorem keep_hostOps3_main_arg2 : StableHlo.after hostOps3 Vv (Proc.devRef .tc main_arg2) = Vv (Proc.devRef .tc main_arg2) := by after_results
theorem keep_hostOps3_main_arg7 : StableHlo.after hostOps3 Vv (Proc.devRef .tc main_arg7) = Vv (Proc.devRef .tc main_arg7) := by after_results
theorem keep_hostOps3_main_arg8 : StableHlo.after hostOps3 Vv (Proc.devRef .tc main_arg8) = Vv (Proc.devRef .tc main_arg8) := by after_results
theorem keep_hostOps4_main_v53 : StableHlo.after hostOps4 Vv (Proc.devRef .tc main_v53) = Vv (Proc.devRef .tc main_v53) := by after_results
theorem keep_hostOps4_main_arg2 : StableHlo.after hostOps4 Vv (Proc.devRef .tc main_arg2) = Vv (Proc.devRef .tc main_arg2) := by after_results
theorem keep_hostOps4_main_arg7 : StableHlo.after hostOps4 Vv (Proc.devRef .tc main_arg7) = Vv (Proc.devRef .tc main_arg7) := by after_results
theorem keep_hostOps4_main_arg8 : StableHlo.after hostOps4 Vv (Proc.devRef .tc main_arg8) = Vv (Proc.devRef .tc main_arg8) := by after_results
theorem keep_hostOps5_main_arg7 : StableHlo.after hostOps5 Vv (Proc.devRef .tc main_arg7) = Vv (Proc.devRef .tc main_arg7) := by after_results
theorem keep_hostOps5_main_arg8 : StableHlo.after hostOps5 Vv (Proc.devRef .tc main_arg8) = Vv (Proc.devRef .tc main_arg8) := by after_results

end Cert.KernelIdeal.Host

end
-- ==== Proof.Region0.lean ====
/-
  The first launch: the encoder, a linear layer with bias over the node features.

  Twenty-five grid points, each taking 2000 rows of the features, all of the weights and the bias, and writing the same 2000 rows of
  the output. The output array after the launch is the layer of the whole arrays.
-/
import proofs.«148762_j27951647163108_1_alg».proof.Proof.Gen.KernelIdeal.Frame
import proofs.«148762_j27951647163108_1_alg».proof.Proof.LibDenseLayers
import Idealize.ShloMosaic.Lib.Pipeline.Value

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

-- the buffer contents the launch is entered with: any
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What one grid point computes from the blocks it loads, entry by entry: the layer applied to the blocks. -/
theorem payload_apply (x0 : Vec Ideal S2000x256 .f32) (x1 : Vec Ideal S256x256 .f32) (x2 : Vec Ideal S256 .f32) (p : Fin 2000) (q : Fin 256) :
    k0_pay1 x0 x1 x2 (ix2 p q) = Gcn.affine x0 x1 x2 (ix2 p q) :=
  Gcn.kernelAffine_apply dot_S2000x256_S256x256_S2000x256_1_0_0_1_n_n.wf bitsLt_bf16_f32 x0 x1 x2 shapeCasts_S256_S1x256 broadcasts_S1x256_S2000x256 p q

/-- The layer of the arrays as the launch finds them. -/
abbrev G (c : Dev nD) : FVec Ideal ⟨2, ![50000, 256]⟩ .f32 := Gcn.affine (V c main_arg0) (V c main_arg3) (V c main_arg4)

/-- The index maps over the grid: the row blocks of the input move with the output's, every other window stays at block zero. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0
    ∧ win0_3.index t (0 : Fin 2) ≤ 24 :=
  (by decide +kernel : ∀ t : Fin grid0.N, _)

/-- Every row block of the output is some grid point's. -/
theorem idx_onto : ∀ q0 : Fin 25, ∃ t : Fin cfg0.N, win0_3.index t = ![q0.val, 0] :=
  (by decide +kernel : ∀ q0 : Fin 25, ∃ t : Fin grid0.N, win0_3.index t = ![q0.val, 0])

/-- What grid point `t` writes back is block `t` of the layer's output: rows 2000·t … 2000·t + 1999 of the output depend on the same
    rows of the input and on all of the weights. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz2]
  simp only [View.ld_unit_zero (S := S2000x256) hz2, View.ld_unit_zero (S := S256x256) hz2, View.ld_unit_zero (S := S256) hz1]
  obtain ⟨e0, e1, e2, e3, e4, e5, e6⟩ := idx_facts t
  funext j
  obtain ⟨p, q, rfl⟩ : ∃ (p : Fin 2000) (q : Fin 256), j = ix2 p q := ⟨j 0, j 1, eq_ix2 j⟩
  have hp : p.val < 2000 := p.isLt
  have hrow : win0_3.index t (0 : Fin 2) * 2000 + 1 * p.val < 50000 := by omega
  have hemb : ((cfg0.win 3).blk t).view.emb (ix2 p q) = ix2 (⟨win0_3.index t (0 : Fin 2) * 2000 + 1 * p.val, hrow⟩ : Fin 50000) q := by
    funext a; apply Fin.ext
    match a with
    | ⟨0, _⟩ => rfl
    | ⟨1, _⟩ => show win0_3.index t (1 : Fin 2) * 256 + 1 * q.val = q.val; omega
  show k0_pay1 (iblk0 V c 0 t) (iblk0 V c 1 t) (iblk0 V c 2 t) (ix2 p q) = G V c (((cfg0.win 3).blk t).view.emb (ix2 p q))
  rw [hemb]
  refine (payload_apply (iblk0 V c 0 t) (iblk0 V c 1 t) (iblk0 V c 2 t) p q).trans ?_
  have hX : ∀ kk : Fin 256, iblk0 V c 0 t (ix2 p kk) = V c main_arg0 (ix2 (⟨win0_3.index t (0 : Fin 2) * 2000 + 1 * p.val, hrow⟩ : Fin 50000) kk) := fun kk => by
    show V c main_arg0 (((cfg0.win 0).blk t).view.emb (ix2 p kk)) = _
    refine congrArg (V c main_arg0) (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 256 + 1 * kk.val = kk.val; omega
  have hW : ∀ (kk : Fin 256) (qq : Fin 256), iblk0 V c 1 t (ix2 kk qq) = V c main_arg3 (ix2 kk qq) := fun kk qq => by
    show V c main_arg3 (((cfg0.win 1).blk t).view.emb (ix2 kk qq)) = _
    refine congrArg (V c main_arg3) (funext fun a => Fin.ext ?_)
    match a with
    | ⟨0, _⟩ => show win0_1.index t (0 : Fin 2) * 256 + 1 * kk.val = kk.val; omega
    | ⟨1, _⟩ => show win0_1.index t (1 : Fin 2) * 256 + 1 * qq.val = qq.val; omega
  have hB : ∀ qq : Fin 256, iblk0 V c 2 t (ix1 qq) = V c main_arg4 (ix1 qq) := fun qq => by
    show V c main_arg4 (((cfg0.win 2).blk t).view.emb (ix1 qq)) = _
    refine congrArg (V c main_arg4) (funext fun a => Fin.ext ?_)
    match a with
    | ⟨0, _⟩ => show win0_2.index t (0 : Fin 1) * 256 + 1 * qq.val = qq.val; omega
  unfold G
  rw [Gcn.affine_apply, Gcn.affine_apply]
  exact congrArg₂ (· + ·) (Finset.sum_congr rfl fun kk _ => congrArg₂ (· * ·) (hX kk) (hW kk q)) (hB q)

/-- An index of the output is in point `t`'s block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v30).slice (win0_3.rect t)).set ↔ _
  rw [View.set_slice_whole, Rect.mem_set_unit]
  exact Iff.rfl

/-- Every entry of the output lies in the block of the point its row falls to. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The output array after the launch is the layer of the input arrays as the launch found them. -/
theorem out_eq (c : Dev nD) : (dat0 V c).arrAt 3 cfg0.N = G V c :=
  (dat0 V c).arrAt_eq_of_cover 3 (G V c) (fun t _ => flushed_eq V c t) cover

end Cert.KernelIdeal.Region0

end
-- ==== Proof.Region1.lean ====
/-
  The second launch: the first graph layer's weight transform, a linear layer without bias.

  Twenty-five grid points, each taking 2000 rows of the hidden features and all of the weights, and writing the same 2000 rows
  of the output. The output array after the launch is the product of the whole arrays.
-/
import proofs.«148762_j27951647163108_1_alg».proof.Proof.Gen.KernelIdeal.Frame
import proofs.«148762_j27951647163108_1_alg».proof.Proof.LibDenseLayers
import Idealize.ShloMosaic.Lib.Pipeline.Value

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

-- the buffer contents the launch is entered with: any
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What one grid point computes from the blocks it loads, entry by entry: the layer applied to the blocks. -/
theorem payload_apply (x0 : Vec Ideal S2000x256 .f32) (x1 : Vec Ideal S256x256 .f32) (p : Fin 2000) (q : Fin 256) :
    k1_pay1 x0 x1 (ix2 p q) = Gcn.product x0 x1 (ix2 p q) := by
  unfold k1_pay1
  simp only [shapeCast_self]
  exact Gcn.kernelProduct_apply dot_S2000x256_S256x256_S2000x256_1_0_0_1_n_n.wf bitsLt_bf16_f32 x0 x1 p q

/-- The layer of the arrays as the launch finds them. -/
abbrev G (c : Dev nD) : FVec Ideal ⟨2, ![50000, 256]⟩ .f32 := Gcn.product (V c main_v30) (V c main_v32)

/-- The index maps over the grid: the row blocks of the input move with the output's, every other window stays at block zero. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 24 :=
  (by decide +kernel : ∀ t : Fin grid1.N, _)

/-- Every row block of the output is some grid point's. -/
theorem idx_onto : ∀ q0 : Fin 25, ∃ t : Fin cfg1.N, win1_2.index t = ![q0.val, 0] :=
  (by decide +kernel : ∀ q0 : Fin 25, ∃ t : Fin grid1.N, win1_2.index t = ![q0.val, 0])

/-- What grid point `t` writes back is block `t` of the layer's output: rows 2000·t … 2000·t + 1999 of the output depend on the same
    rows of the input and on all of the weights. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz2]
  simp only [View.ld_unit_zero (S := S2000x256) hz2, View.ld_unit_zero (S := S256x256) hz2]
  obtain ⟨e0, e1, e2, e3, e4, e5⟩ := idx_facts t
  funext j
  obtain ⟨p, q, rfl⟩ : ∃ (p : Fin 2000) (q : Fin 256), j = ix2 p q := ⟨j 0, j 1, eq_ix2 j⟩
  have hp : p.val < 2000 := p.isLt
  have hrow : win1_2.index t (0 : Fin 2) * 2000 + 1 * p.val < 50000 := by omega
  have hemb : ((cfg1.win 2).blk t).view.emb (ix2 p q) = ix2 (⟨win1_2.index t (0 : Fin 2) * 2000 + 1 * p.val, hrow⟩ : Fin 50000) q := by
    funext a; apply Fin.ext
    match a with
    | ⟨0, _⟩ => rfl
    | ⟨1, _⟩ => show win1_2.index t (1 : Fin 2) * 256 + 1 * q.val = q.val; omega
  show k1_pay1 (iblk1 V c 0 t) (iblk1 V c 1 t) (ix2 p q) = G V c (((cfg1.win 2).blk t).view.emb (ix2 p q))
  rw [hemb]
  refine (payload_apply (iblk1 V c 0 t) (iblk1 V c 1 t) p q).trans ?_
  have hX : ∀ kk : Fin 256, iblk1 V c 0 t (ix2 p kk) = V c main_v30 (ix2 (⟨win1_2.index t (0 : Fin 2) * 2000 + 1 * p.val, hrow⟩ : Fin 50000) kk) := fun kk => by
    show V c main_v30 (((cfg1.win 0).blk t).view.emb (ix2 p kk)) = _
    refine congrArg (V c main_v30) (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 256 + 1 * kk.val = kk.val; omega
  have hW : ∀ (kk : Fin 256) (qq : Fin 256), iblk1 V c 1 t (ix2 kk qq) = V c main_v32 (ix2 kk qq) := fun kk qq => by
    show V c main_v32 (((cfg1.win 1).blk t).view.emb (ix2 kk qq)) = _
    refine congrArg (V c main_v32) (funext fun a => Fin.ext ?_)
    match a with
    | ⟨0, _⟩ => show win1_1.index t (0 : Fin 2) * 256 + 1 * kk.val = kk.val; omega
    | ⟨1, _⟩ => show win1_1.index t (1 : Fin 2) * 256 + 1 * qq.val = qq.val; omega
  unfold G
  rw [Gcn.product_apply, Gcn.product_apply]
  exact Finset.sum_congr rfl fun kk _ => congrArg₂ (· * ·) (hX kk) (hW kk q)

/-- An index of the output is in point `t`'s block iff each coordinate is in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v35).slice (win1_2.rect t)).set ↔ _
  rw [View.set_slice_whole, Rect.mem_set_unit]
  exact Iff.rfl

/-- Every entry of the output lies in the block of the point its row falls to. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- The output array after the launch is the layer of the input arrays as the launch found them. -/
theorem out_eq (c : Dev nD) : (dat1 V c).arrAt 2 cfg1.N = G V c :=
  (dat1 V c).arrAt_eq_of_cover 2 (G V c) (fun t _ => flushed_eq V c t) cover

end Cert.KernelIdeal.Region1

end
-- ==== Proof.Region2.lean ====
/-
  The third launch: the first graph layer's epilogue, bias then the larger of the sum and zero.

  Ten grid points, each taking 5000 rows of the aggregated features and the bias, and writing the same 5000 rows of the output.
  The output array after the launch is that function of the whole arrays.
-/
import proofs.«148762_j27951647163108_1_alg».proof.Proof.Gen.KernelIdeal.Frame
import proofs.«148762_j27951647163108_1_alg».proof.Proof.LibDenseLayers
import Idealize.ShloMosaic.Lib.Pipeline.Value

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

-- the buffer contents the launch is entered with: any
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What one grid point computes from the blocks it loads, entry by entry: the layer applied to the blocks. -/
theorem payload_apply (x0 : Vec Ideal S5000x256 .f32) (x1 : Vec Ideal S256 .f32) (p : Fin 5000) (q : Fin 256) :
    k2_pay1 x0 x1 (ix2 p q) = Gcn.biasRelu x0 x1 (ix2 p q) := by
  unfold k2_pay1
  simp only [shapeCast_self]
  exact Gcn.kernelBiasRelu_apply x0 x1 shapeCasts_S256_S1x256 broadcasts_S1x256_S5000x256 p q

/-- The layer of the arrays as the launch finds them. -/
abbrev G (c : Dev nD) : FVec Ideal ⟨2, ![50000, 256]⟩ .f32 := Gcn.biasRelu (V c main_v48) (V c main_v34)

/-- The index maps over the grid: the row blocks of the input move with the output's, every other window stays at block zero. -/
theorem idx_facts : ∀ t : Fin cfg2.N, win2_0.index t (0 : Fin 2) = win2_2.index t (0 : Fin 2)
    ∧ win2_0.index t (1 : Fin 2) = 0
    ∧ win2_1.index t (0 : Fin 1) = 0
    ∧ win2_2.index t (1 : Fin 2) = 0
    ∧ win2_2.index t (0 : Fin 2) ≤ 9 :=
  (by decide +kernel : ∀ t : Fin grid2.N, _)

/-- Every row block of the output is some grid point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What grid point `t` writes back is block `t` of the layer's output: rows 5000·t … 5000·t + 4999 of the output depend on the same
    rows of the input and on all of the weights. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz2]
  simp only [View.ld_unit_zero (S := S5000x256) hz2, View.ld_unit_zero (S := S256) hz1]
  obtain ⟨e0, e1, e2, e3, e4⟩ := idx_facts t
  funext j
  obtain ⟨p, q, rfl⟩ : ∃ (p : Fin 5000) (q : Fin 256), j = ix2 p q := ⟨j 0, j 1, eq_ix2 j⟩
  have hp : p.val < 5000 := p.isLt
  have hrow : win2_2.index t (0 : Fin 2) * 5000 + 1 * p.val < 50000 := by omega
  have hemb : ((cfg2.win 2).blk t).view.emb (ix2 p q) = ix2 (⟨win2_2.index t (0 : Fin 2) * 5000 + 1 * p.val, hrow⟩ : Fin 50000) q := by
    funext a; apply Fin.ext
    match a with
    | ⟨0, _⟩ => rfl
    | ⟨1, _⟩ => show win2_2.index t (1 : Fin 2) * 256 + 1 * q.val = q.val; omega
  show k2_pay1 (iblk2 V c 0 t) (iblk2 V c 1 t) (ix2 p q) = G V c (((cfg2.win 2).blk t).view.emb (ix2 p q))
  rw [hemb]
  refine (payload_apply (iblk2 V c 0 t) (iblk2 V c 1 t) p q).trans ?_
  have hX : ∀ kk : Fin 256, iblk2 V c 0 t (ix2 p kk) = V c main_v48 (ix2 (⟨win2_2.index t (0 : Fin 2) * 5000 + 1 * p.val, hrow⟩ : Fin 50000) kk) := fun kk => by
    show V c main_v48 (((cfg2.win 0).blk t).view.emb (ix2 p kk)) = _
    refine congrArg (V c main_v48) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 256 + 1 * kk.val = kk.val; omega
  have hB : ∀ qq : Fin 256, iblk2 V c 1 t (ix1 qq) = V c main_v34 (ix1 qq) := fun qq => by
    show V c main_v34 (((cfg2.win 1).blk t).view.emb (ix1 qq)) = _
    refine congrArg (V c main_v34) (funext fun a => Fin.ext ?_)
    match a with
    | ⟨0, _⟩ => show win2_1.index t (0 : Fin 1) * 256 + 1 * qq.val = qq.val; omega
  unfold G
  rw [Gcn.biasRelu_apply, Gcn.biasRelu_apply]
  exact congrArg (max · _) (congrArg₂ (· + ·) (hX q) (hB q))

/-- An index of the output is in point `t`'s block iff each coordinate is in the block's range on its axis. -/
theorem mem_blk (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v49).slice (win2_2.rect t)).set ↔ _
  rw [View.set_slice_whole, Rect.mem_set_unit]
  exact Iff.rfl

/-- Every entry of the output lies in the block of the point its row falls to. -/
theorem cover (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- The output array after the launch is the layer of the input arrays as the launch found them. -/
theorem out_eq (c : Dev nD) : (dat2 V c).arrAt 2 cfg2.N = G V c :=
  (dat2 V c).arrAt_eq_of_cover 2 (G V c) (fun t _ => flushed_eq V c t) cover

end Cert.KernelIdeal.Region2

end
-- ==== Proof.Region3.lean ====
/-
  The fourth launch: the second graph layer's weight transform, a linear layer without bias.

  Twenty-five grid points, each taking 2000 rows of the hidden features and all of the weights, and writing the same 2000 rows
  of the output. The output array after the launch is the product of the whole arrays.
-/
import proofs.«148762_j27951647163108_1_alg».proof.Proof.Gen.KernelIdeal.Frame
import proofs.«148762_j27951647163108_1_alg».proof.Proof.LibDenseLayers
import Idealize.ShloMosaic.Lib.Pipeline.Value

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat)

-- the buffer contents the launch is entered with: any
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What one grid point computes from the blocks it loads, entry by entry: the layer applied to the blocks. -/
theorem payload_apply (x0 : Vec Ideal S2000x256 .f32) (x1 : Vec Ideal S256x256 .f32) (p : Fin 2000) (q : Fin 256) :
    k3_pay1 x0 x1 (ix2 p q) = Gcn.product x0 x1 (ix2 p q) := by
  unfold k3_pay1
  simp only [shapeCast_self]
  exact Gcn.kernelProduct_apply dot_S2000x256_S256x256_S2000x256_1_0_0_1_n_n.wf bitsLt_bf16_f32 x0 x1 p q

/-- The layer of the arrays as the launch finds them. -/
abbrev G (c : Dev nD) : FVec Ideal ⟨2, ![50000, 256]⟩ .f32 := Gcn.product (V c main_v49) (V c main_v51)

/-- The index maps over the grid: the row blocks of the input move with the output's, every other window stays at block zero. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 24 :=
  (by decide +kernel : ∀ t : Fin grid3.N, _)

/-- Every row block of the output is some grid point's. -/
theorem idx_onto : ∀ q0 : Fin 25, ∃ t : Fin cfg3.N, win3_2.index t = ![q0.val, 0] :=
  (by decide +kernel : ∀ q0 : Fin 25, ∃ t : Fin grid3.N, win3_2.index t = ![q0.val, 0])

/-- What grid point `t` writes back is block `t` of the layer's output: rows 2000·t … 2000·t + 1999 of the output depend on the same
    rows of the input and on all of the weights. -/
theorem flushed_eq (c : Dev nD) (t : Fin cfg3.N) :
    (dat3 V c).flushed 2 t = ((cfg3.win 2).blk t).view.read (Elt Ideal) (G V c) := by
  show (cfg3.win 2).cut (grid3.coords t) ((dat3 V c).after 2 t) = _
  rw [after3_2]
  unfold out3_2
  rw [View.canon_unit_zero hz2]
  simp only [View.ld_unit_zero (S := S2000x256) hz2, View.ld_unit_zero (S := S256x256) hz2]
  obtain ⟨e0, e1, e2, e3, e4, e5⟩ := idx_facts t
  funext j
  obtain ⟨p, q, rfl⟩ : ∃ (p : Fin 2000) (q : Fin 256), j = ix2 p q := ⟨j 0, j 1, eq_ix2 j⟩
  have hp : p.val < 2000 := p.isLt
  have hrow : win3_2.index t (0 : Fin 2) * 2000 + 1 * p.val < 50000 := by omega
  have hemb : ((cfg3.win 2).blk t).view.emb (ix2 p q) = ix2 (⟨win3_2.index t (0 : Fin 2) * 2000 + 1 * p.val, hrow⟩ : Fin 50000) q := by
    funext a; apply Fin.ext
    match a with
    | ⟨0, _⟩ => rfl
    | ⟨1, _⟩ => show win3_2.index t (1 : Fin 2) * 256 + 1 * q.val = q.val; omega
  show k3_pay1 (iblk3 V c 0 t) (iblk3 V c 1 t) (ix2 p q) = G V c (((cfg3.win 2).blk t).view.emb (ix2 p q))
  rw [hemb]
  refine (payload_apply (iblk3 V c 0 t) (iblk3 V c 1 t) p q).trans ?_
  have hX : ∀ kk : Fin 256, iblk3 V c 0 t (ix2 p kk) = V c main_v49 (ix2 (⟨win3_2.index t (0 : Fin 2) * 2000 + 1 * p.val, hrow⟩ : Fin 50000) kk) := fun kk => by
    show V c main_v49 (((cfg3.win 0).blk t).view.emb (ix2 p kk)) = _
    refine congrArg (V c main_v49) (funext fun a => Fin.ext ?_)
    match a with
    | ⟨0, _⟩ => show win3_0.index t (0 : Fin 2) * 2000 + 1 * p.val = win3_2.index t (0 : Fin 2) * 2000 + 1 * p.val; omega
    | ⟨1, _⟩ => show win3_0.index t (1 : Fin 2) * 256 + 1 * kk.val = kk.val; omega
  have hW : ∀ (kk : Fin 256) (qq : Fin 256), iblk3 V c 1 t (ix2 kk qq) = V c main_v51 (ix2 kk qq) := fun kk qq => by
    show V c main_v51 (((cfg3.win 1).blk t).view.emb (ix2 kk qq)) = _
    refine congrArg (V c main_v51) (funext fun a => Fin.ext ?_)
    match a with
    | ⟨0, _⟩ => show win3_1.index t (0 : Fin 2) * 256 + 1 * kk.val = kk.val; omega
    | ⟨1, _⟩ => show win3_1.index t (1 : Fin 2) * 256 + 1 * qq.val = qq.val; omega
  unfold G
  rw [Gcn.product_apply, Gcn.product_apply]
  exact Finset.sum_congr rfl fun kk _ => congrArg₂ (· * ·) (hX kk) (hW kk q)

/-- An index of the output is in point `t`'s block iff each coordinate is in the block's range on its axis. -/
theorem mem_blk (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v54).slice (win3_2.rect t)).set ↔ _
  rw [View.set_slice_whole, Rect.mem_set_unit]
  exact Iff.rfl

/-- Every entry of the output lies in the block of the point its row falls to. -/
theorem cover (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 256 ≤ (i 1).val ∧ (i 1).val < win3_2.index t (1 : Fin 2) * 256 + 256; omega

/-- The output array after the launch is the layer of the input arrays as the launch found them. -/
theorem out_eq (c : Dev nD) : (dat3 V c).arrAt 2 cfg3.N = G V c :=
  (dat3 V c).arrAt_eq_of_cover 2 (G V c) (fun t _ => flushed_eq V c t) cover

end Cert.KernelIdeal.Region3

end
-- ==== Proof.Region4.lean ====
/-
  The fifth launch: the second graph layer's epilogue, bias then the larger of the sum and zero.

  Ten grid points, each taking 5000 rows of the aggregated features and the bias, and writing the same 5000 rows of the output.
  The output array after the launch is that function of the whole arrays.
-/
import proofs.«148762_j27951647163108_1_alg».proof.Proof.Gen.KernelIdeal.Frame
import proofs.«148762_j27951647163108_1_alg».proof.Proof.LibDenseLayers
import Idealize.ShloMosaic.Lib.Pipeline.Value

noncomputable section

namespace Cert.KernelIdeal.Region4

open Cert.KernelIdeal Cert.KernelIdeal.Gen
open Idealize.ShloMosaic Idealize.ShloMosaic.TcCoe Idealize.SL.Sem Idealize.ShloMosaic.ValueIdx
open Idealize.ShloMosaic.Pipeline (Dat)

-- the buffer contents the launch is entered with: any
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What one grid point computes from the blocks it loads, entry by entry: the layer applied to the blocks. -/
theorem payload_apply (x0 : Vec Ideal S5000x256 .f32) (x1 : Vec Ideal S256 .f32) (p : Fin 5000) (q : Fin 256) :
    k4_pay1 x0 x1 (ix2 p q) = Gcn.biasRelu x0 x1 (ix2 p q) := by
  unfold k4_pay1
  simp only [shapeCast_self]
  exact Gcn.kernelBiasRelu_apply x0 x1 shapeCasts_S256_S1x256 broadcasts_S1x256_S5000x256 p q

/-- The layer of the arrays as the launch finds them. -/
abbrev G (c : Dev nD) : FVec Ideal ⟨2, ![50000, 256]⟩ .f32 := Gcn.biasRelu (V c main_v67) (V c main_v53)

/-- The index maps over the grid: the row blocks of the input move with the output's, every other window stays at block zero. -/
theorem idx_facts : ∀ t : Fin cfg4.N, win4_0.index t (0 : Fin 2) = win4_2.index t (0 : Fin 2)
    ∧ win4_0.index t (1 : Fin 2) = 0
    ∧ win4_1.index t (0 : Fin 1) = 0
    ∧ win4_2.index t (1 : Fin 2) = 0
    ∧ win4_2.index t (0 : Fin 2) ≤ 9 :=
  (by decide +kernel : ∀ t : Fin grid4.N, _)

/-- Every row block of the output is some grid point's. -/
theorem idx_onto : ∀ q0 : Fin 10, ∃ t : Fin cfg4.N, win4_2.index t = ![q0.val, 0] :=
  (by decide +kernel : ∀ q0 : Fin 10, ∃ t : Fin grid4.N, win4_2.index t = ![q0.val, 0])

/-- What grid point `t` writes back is block `t` of the layer's output: rows 5000·t … 5000·t + 4999 of the output depend on the same
    rows of the input and on all of the weights. -/
theorem flushed_eq (c : Dev nD) (t : Fin cfg4.N) :
    (dat4 V c).flushed 2 t = ((cfg4.win 2).blk t).view.read (Elt Ideal) (G V c) := by
  show (cfg4.win 2).cut (grid4.coords t) ((dat4 V c).after 2 t) = _
  rw [after4_2]
  unfold out4_2
  rw [View.canon_unit_zero hz2]
  simp only [View.ld_unit_zero (S := S5000x256) hz2, View.ld_unit_zero (S := S256) hz1]
  obtain ⟨e0, e1, e2, e3, e4⟩ := idx_facts t
  funext j
  obtain ⟨p, q, rfl⟩ : ∃ (p : Fin 5000) (q : Fin 256), j = ix2 p q := ⟨j 0, j 1, eq_ix2 j⟩
  have hp : p.val < 5000 := p.isLt
  have hrow : win4_2.index t (0 : Fin 2) * 5000 + 1 * p.val < 50000 := by omega
  have hemb : ((cfg4.win 2).blk t).view.emb (ix2 p q) = ix2 (⟨win4_2.index t (0 : Fin 2) * 5000 + 1 * p.val, hrow⟩ : Fin 50000) q := by
    funext a; apply Fin.ext
    match a with
    | ⟨0, _⟩ => rfl
    | ⟨1, _⟩ => show win4_2.index t (1 : Fin 2) * 256 + 1 * q.val = q.val; omega
  show k4_pay1 (iblk4 V c 0 t) (iblk4 V c 1 t) (ix2 p q) = G V c (((cfg4.win 2).blk t).view.emb (ix2 p q))
  rw [hemb]
  refine (payload_apply (iblk4 V c 0 t) (iblk4 V c 1 t) p q).trans ?_
  have hX : ∀ kk : Fin 256, iblk4 V c 0 t (ix2 p kk) = V c main_v67 (ix2 (⟨win4_2.index t (0 : Fin 2) * 5000 + 1 * p.val, hrow⟩ : Fin 50000) kk) := fun kk => by
    show V c main_v67 (((cfg4.win 0).blk t).view.emb (ix2 p kk)) = _
    refine congrArg (V c main_v67) (funext fun a => Fin.ext ?_)
    match a with
    | ⟨0, _⟩ => show win4_0.index t (0 : Fin 2) * 5000 + 1 * p.val = win4_2.index t (0 : Fin 2) * 5000 + 1 * p.val; omega
    | ⟨1, _⟩ => show win4_0.index t (1 : Fin 2) * 256 + 1 * kk.val = kk.val; omega
  have hB : ∀ qq : Fin 256, iblk4 V c 1 t (ix1 qq) = V c main_v53 (ix1 qq) := fun qq => by
    show V c main_v53 (((cfg4.win 1).blk t).view.emb (ix1 qq)) = _
    refine congrArg (V c main_v53) (funext fun a => Fin.ext ?_)
    match a with
    | ⟨0, _⟩ => show win4_1.index t (0 : Fin 1) * 256 + 1 * qq.val = qq.val; omega
  unfold G
  rw [Gcn.biasRelu_apply, Gcn.biasRelu_apply]
  exact congrArg (max · _) (congrArg₂ (· + ·) (hX q) (hB q))

/-- An index of the output is in point `t`'s block iff each coordinate is in the block's range on its axis. -/
theorem mem_blk (t : Fin cfg4.N) (i : S50000x256.Idx) :
    i ∈ ((cfg4.win 2).blk t).view.set ↔ ∀ a : Fin 2, win4_2.index t a * S5000x256.size a ≤ (i a).val ∧ (i a).val < win4_2.index t a * S5000x256.size a + S5000x256.size a := by
  show i ∈ ((View.whole main_v68).slice (win4_2.rect t)).set ↔ _
  rw [View.set_slice_whole, Rect.mem_set_unit]
  exact Iff.rfl

/-- Every entry of the output lies in the block of the point its row falls to. -/
theorem cover (i : S50000x256.Idx) : ∃ t : Fin cfg4.N, (cfg4.win 2).flush t = true ∧ i ∈ ((cfg4.win 2).blk t).view.set := by
  have hi0 : (i 0).val < 50000 := (i 0).isLt
  have hi1 : (i 1).val < 256 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 256 ≤ (i 1).val ∧ (i 1).val < win4_2.index t (1 : Fin 2) * 256 + 256; omega

/-- The output array after the launch is the layer of the input arrays as the launch found them. -/
theorem out_eq (c : Dev nD) : (dat4 V c).arrAt 2 cfg4.N = G V c :=
  (dat4 V c).arrAt_eq_of_cover 2 (G V c) (fun t _ => flushed_eq V c t) cover

end Cert.KernelIdeal.Region4

end
-- ==== Proof.Region5.lean ====
/-
  The sixth launch: the read-out, a linear layer with bias over the pooled graph features.

  One grid point, taking all 512 rows of the pooled features, all of the weights and the bias, and writing the whole output. The
  output array after the launch is the layer of the whole arrays.
-/
import proofs.«148762_j27951647163108_1_alg».proof.Proof.Gen.KernelIdeal.Frame
import proofs.«148762_j27951647163108_1_alg».proof.Proof.LibDenseLayers
import Idealize.ShloMosaic.Lib.Pipeline.Value

noncomputable section

namespace Cert.KernelIdeal.Region5

open Cert.KernelIdeal Cert.KernelIdeal.Gen
open Idealize.ShloMosaic Idealize.ShloMosaic.TcCoe Idealize.SL.Sem Idealize.ShloMosaic.ValueIdx
open Idealize.ShloMosaic.Pipeline (Dat)

-- the buffer contents the launch is entered with: any
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What one grid point computes from the blocks it loads, entry by entry: the layer applied to the blocks. -/
theorem payload_apply (x0 : Vec Ideal S512x256 .f32) (x1 : Vec Ideal S256x10 .f32) (x2 : Vec Ideal S10 .f32) (p : Fin 512) (q : Fin 10) :
    k5_pay1 x0 x1 x2 (ix2 p q) = Gcn.affine x0 x1 x2 (ix2 p q) := by
  unfold k5_pay1
  simp only [shapeCast_self]
  exact Gcn.kernelAffine_apply dot_S512x256_S256x10_S512x10_1_0_0_1_n_n.wf bitsLt_bf16_f32 x0 x1 x2 shapeCasts_S10_S1x10 broadcasts_S1x10_S512x10 p q

/-- The layer of the arrays as the launch finds them. -/
abbrev G (c : Dev nD) : FVec Ideal ⟨2, ![512, 10]⟩ .f32 := Gcn.affine (V c main_v80) (V c main_arg7) (V c main_arg8)

/-- The index maps over the grid: the row blocks of the input move with the output's, every other window stays at block zero. -/
theorem idx_facts : ∀ t : Fin cfg5.N, win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 1) = 0
    ∧ win5_3.index t (1 : Fin 2) = 0
    ∧ win5_3.index t (0 : Fin 2) ≤ 0 :=
  (by decide +kernel : ∀ t : Fin grid5.N, _)

/-- Every row block of the output is some grid point's. -/
theorem idx_onto : ∀ q0 : Fin 1, ∃ t : Fin cfg5.N, win5_3.index t = ![q0.val, 0] :=
  (by decide +kernel : ∀ q0 : Fin 1, ∃ t : Fin grid5.N, win5_3.index t = ![q0.val, 0])

/-- What grid point `t` writes back is block `t` of the layer's output: rows 512·t … 512·t + 511 of the output depend on the same
    rows of the input and on all of the weights. -/
theorem flushed_eq (c : Dev nD) (t : Fin cfg5.N) :
    (dat5 V c).flushed 3 t = ((cfg5.win 3).blk t).view.read (Elt Ideal) (G V c) := by
  show (cfg5.win 3).cut (grid5.coords t) ((dat5 V c).after 3 t) = _
  rw [after5_3]
  unfold out5_3
  rw [View.canon_unit_zero hz2]
  simp only [View.ld_unit_zero (S := S512x256) hz2, View.ld_unit_zero (S := S256x10) hz2, View.ld_unit_zero (S := S10) hz1]
  obtain ⟨e0, e1, e2, e3, e4, e5, e6⟩ := idx_facts t
  funext j
  obtain ⟨p, q, rfl⟩ : ∃ (p : Fin 512) (q : Fin 10), j = ix2 p q := ⟨j 0, j 1, eq_ix2 j⟩
  have hp : p.val < 512 := p.isLt
  have hrow : win5_3.index t (0 : Fin 2) * 512 + 1 * p.val < 512 := by omega
  have hemb : ((cfg5.win 3).blk t).view.emb (ix2 p q) = ix2 (⟨win5_3.index t (0 : Fin 2) * 512 + 1 * p.val, hrow⟩ : Fin 512) q := by
    funext a; apply Fin.ext
    match a with
    | ⟨0, _⟩ => rfl
    | ⟨1, _⟩ => show win5_3.index t (1 : Fin 2) * 10 + 1 * q.val = q.val; omega
  show k5_pay1 (iblk5 V c 0 t) (iblk5 V c 1 t) (iblk5 V c 2 t) (ix2 p q) = G V c (((cfg5.win 3).blk t).view.emb (ix2 p q))
  rw [hemb]
  refine (payload_apply (iblk5 V c 0 t) (iblk5 V c 1 t) (iblk5 V c 2 t) p q).trans ?_
  have hX : ∀ kk : Fin 256, iblk5 V c 0 t (ix2 p kk) = V c main_v80 (ix2 (⟨win5_3.index t (0 : Fin 2) * 512 + 1 * p.val, hrow⟩ : Fin 512) kk) := fun kk => by
    show V c main_v80 (((cfg5.win 0).blk t).view.emb (ix2 p kk)) = _
    refine congrArg (V c main_v80) (funext fun a => Fin.ext ?_)
    match a with
    | ⟨0, _⟩ => show win5_0.index t (0 : Fin 2) * 512 + 1 * p.val = win5_3.index t (0 : Fin 2) * 512 + 1 * p.val; omega
    | ⟨1, _⟩ => show win5_0.index t (1 : Fin 2) * 256 + 1 * kk.val = kk.val; omega
  have hW : ∀ (kk : Fin 256) (qq : Fin 10), iblk5 V c 1 t (ix2 kk qq) = V c main_arg7 (ix2 kk qq) := fun kk qq => by
    show V c main_arg7 (((cfg5.win 1).blk t).view.emb (ix2 kk qq)) = _
    refine congrArg (V c main_arg7) (funext fun a => Fin.ext ?_)
    match a with
    | ⟨0, _⟩ => show win5_1.index t (0 : Fin 2) * 256 + 1 * kk.val = kk.val; omega
    | ⟨1, _⟩ => show win5_1.index t (1 : Fin 2) * 10 + 1 * qq.val = qq.val; omega
  have hB : ∀ qq : Fin 10, iblk5 V c 2 t (ix1 qq) = V c main_arg8 (ix1 qq) := fun qq => by
    show V c main_arg8 (((cfg5.win 2).blk t).view.emb (ix1 qq)) = _
    refine congrArg (V c main_arg8) (funext fun a => Fin.ext ?_)
    match a with
    | ⟨0, _⟩ => show win5_2.index t (0 : Fin 1) * 10 + 1 * qq.val = qq.val; omega
  unfold G
  rw [Gcn.affine_apply, Gcn.affine_apply]
  exact congrArg₂ (· + ·) (Finset.sum_congr rfl fun kk _ => congrArg₂ (· * ·) (hX kk) (hW kk q)) (hB q)

/-- An index of the output is in point `t`'s block iff each coordinate is in the block's range on its axis. -/
theorem mem_blk (t : Fin cfg5.N) (i : S512x10.Idx) :
    i ∈ ((cfg5.win 3).blk t).view.set ↔ ∀ a : Fin 2, win5_3.index t a * S512x10.size a ≤ (i a).val ∧ (i a).val < win5_3.index t a * S512x10.size a + S512x10.size a := by
  show i ∈ ((View.whole main_v81).slice (win5_3.rect t)).set ↔ _
  rw [View.set_slice_whole, Rect.mem_set_unit]
  exact Iff.rfl

/-- Every entry of the output lies in the block of the point its row falls to. -/
theorem cover (i : S512x10.Idx) : ∃ t : Fin cfg5.N, (cfg5.win 3).flush t = true ∧ i ∈ ((cfg5.win 3).blk t).view.set := by
  have hi0 : (i 0).val < 512 := (i 0).isLt
  have hi1 : (i 1).val < 10 := (i 1).isLt
  obtain ⟨t, ht⟩ := idx_onto ⟨(i 0).val / 512, by omega⟩
  have q0 : win5_3.index t (0 : Fin 2) = (i 0).val / 512 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 512 ≤ (i 0).val ∧ (i 0).val < win5_3.index t (0 : Fin 2) * 512 + 512; omega
  | ⟨1, _⟩ => show win5_3.index t (1 : Fin 2) * 10 ≤ (i 1).val ∧ (i 1).val < win5_3.index t (1 : Fin 2) * 10 + 10; omega

/-- The output array after the launch is the layer of the input arrays as the launch found them. -/
theorem out_eq (c : Dev nD) : (dat5 V c).arrAt 3 cfg5.N = G V c :=
  (dat5 V c).arrAt_eq_of_cover 3 (G V c) (fun t _ => flushed_eq V c t) cover

end Cert.KernelIdeal.Region5

end
-- ==== Proof.Chain.lean ====
/-
  The idealized kernel's result, segment by segment.

  The run's fold through the fourteen segments is followed for the buffers the result depends on. Before the first launch the
  host builds the edge lists (with the self loops) and the edge weights; then, twice, a launch multiplies the hidden features
  by a layer's weights, the host gathers the rows at the edge sources, scales them, adds them into the target rows, and a launch
  adds the bias and clamps at zero; the host pools the node rows by graph and a last launch applies the read-out layer. A
  launch's output array is the layer's function of its input arrays (the region modules), a host stretch's result is the
  composition of its operations (the host module), a buffer nobody writes keeps its contents. At each boundary the buffers
  that matter hold exactly the reference's stages of the same arguments, and so does the result.
-/
import proofs.«148762_j27951647163108_1_alg».proof.Proof.Gen.KernelIdeal.Frame
import proofs.«148762_j27951647163108_1_alg».proof.Proof.RefRead
import proofs.«148762_j27951647163108_1_alg».proof.Proof.LibDenseLayers
import proofs.«148762_j27951647163108_1_alg».proof.Proof.Host
import proofs.«148762_j27951647163108_1_alg».proof.Proof.Region0
import proofs.«148762_j27951647163108_1_alg».proof.Proof.Region1
import proofs.«148762_j27951647163108_1_alg».proof.Proof.Region2
import proofs.«148762_j27951647163108_1_alg».proof.Proof.Region3
import proofs.«148762_j27951647163108_1_alg».proof.Proof.Region4
import proofs.«148762_j27951647163108_1_alg».proof.Proof.Region5

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments, carried to where they are read -/

theorem w0_main_arg0 (c : Dev nD) : W0 m ρ c (Proc.devRef .tc main_arg0) = (m ((c : Thread nD τ).loc main_arg0)) := rfl
theorem w1_main_arg0 (c : Dev nD) : W1 m ρ c (Proc.devRef .tc main_arg0) = (m ((c : Thread nD τ).loc main_arg0)) :=
  (Host.keep_hostOps0_main_arg0 (W0 m ρ c)).trans (w0_main_arg0 m ρ c)
theorem w2_main_arg0 (c : Dev nD) : W2 m ρ c (Proc.devRef .tc main_arg0) = (m ((c : Thread nD τ).loc main_arg0)) :=
  (Host.keep_hostOps0_1_main_arg0 (W1 m ρ c)).trans (w1_main_arg0 m ρ c)
theorem w3_main_arg0 (c : Dev nD) : W3 m ρ c (Proc.devRef .tc main_arg0) = (m ((c : Thread nD τ).loc main_arg0)) :=
  (Host.keep_hostOps0_2_main_arg0 (W2 m ρ c)).trans (w2_main_arg0 m ρ c)
theorem w0_main_arg3 (c : Dev nD) : W0 m ρ c (Proc.devRef .tc main_arg3) = (m ((c : Thread nD τ).loc main_arg3)) := rfl
theorem w1_main_arg3 (c : Dev nD) : W1 m ρ c (Proc.devRef .tc main_arg3) = (m ((c : Thread nD τ).loc main_arg3)) :=
  (Host.keep_hostOps0_main_arg3 (W0 m ρ c)).trans (w0_main_arg3 m ρ c)
theorem w2_main_arg3 (c : Dev nD) : W2 m ρ c (Proc.devRef .tc main_arg3) = (m ((c : Thread nD τ).loc main_arg3)) :=
  (Host.keep_hostOps0_1_main_arg3 (W1 m ρ c)).trans (w1_main_arg3 m ρ c)
theorem w3_main_arg3 (c : Dev nD) : W3 m ρ c (Proc.devRef .tc main_arg3) = (m ((c : Thread nD τ).loc main_arg3)) :=
  (Host.keep_hostOps0_2_main_arg3 (W2 m ρ c)).trans (w2_main_arg3 m ρ c)
theorem w0_main_arg4 (c : Dev nD) : W0 m ρ c (Proc.devRef .tc main_arg4) = (m ((c : Thread nD τ).loc main_arg4)) := rfl
theorem w1_main_arg4 (c : Dev nD) : W1 m ρ c (Proc.devRef .tc main_arg4) = (m ((c : Thread nD τ).loc main_arg4)) :=
  (Host.keep_hostOps0_main_arg4 (W0 m ρ c)).trans (w0_main_arg4 m ρ c)
theorem w2_main_arg4 (c : Dev nD) : W2 m ρ c (Proc.devRef .tc main_arg4) = (m ((c : Thread nD τ).loc main_arg4)) :=
  (Host.keep_hostOps0_1_main_arg4 (W1 m ρ c)).trans (w1_main_arg4 m ρ c)
theorem w3_main_arg4 (c : Dev nD) : W3 m ρ c (Proc.devRef .tc main_arg4) = (m ((c : Thread nD τ).loc main_arg4)) :=
  (Host.keep_hostOps0_2_main_arg4 (W2 m ρ c)).trans (w2_main_arg4 m ρ c)
theorem w0_main_arg5 (c : Dev nD) : W0 m ρ c (Proc.devRef .tc main_arg5) = (m ((c : Thread nD τ).loc main_arg5)) := rfl
theorem w1_main_arg5 (c : Dev nD) : W1 m ρ c (Proc.devRef .tc main_arg5) = (m ((c : Thread nD τ).loc main_arg5)) :=
  (Host.keep_hostOps0_main_arg5 (W0 m ρ c)).trans (w0_main_arg5 m ρ c)
theorem w2_main_arg5 (c : Dev nD) : W2 m ρ c (Proc.devRef .tc main_arg5) = (m ((c : Thread nD τ).loc main_arg5)) :=
  (Host.keep_hostOps0_1_main_arg5 (W1 m ρ c)).trans (w1_main_arg5 m ρ c)
theorem w3_main_arg5 (c : Dev nD) : W3 m ρ c (Proc.devRef .tc main_arg5) = (m ((c : Thread nD τ).loc main_arg5)) :=
  (Host.keep_hostOps0_2_main_arg5 (W2 m ρ c)).trans (w2_main_arg5 m ρ c)
theorem w4_main_arg5 (c : Dev nD) : W4 m ρ c (Proc.devRef .tc main_arg5) = (m ((c : Thread nD τ).loc main_arg5)) :=
  (W4_of_ne m ρ c main_arg5 (by decide)).trans (w3_main_arg5 m ρ c)
theorem w5_main_arg5 (c : Dev nD) : W5 m ρ c (Proc.devRef .tc main_arg5) = (m ((c : Thread nD τ).loc main_arg5)) :=
  (Host.keep_hostOps1_main_arg5 (W4 m ρ c)).trans (w4_main_arg5 m ρ c)
theorem w6_main_arg5 (c : Dev nD) : W6 m ρ c (Proc.devRef .tc main_arg5) = (m ((c : Thread nD τ).loc main_arg5)) :=
  (W6_of_ne m ρ c main_arg5 (by decide)).trans (w5_main_arg5 m ρ c)
theorem w7_main_arg5 (c : Dev nD) : W7 m ρ c (Proc.devRef .tc main_arg5) = (m ((c : Thread nD τ).loc main_arg5)) :=
  (Host.keep_hostOps2_main_arg5 (W6 m ρ c)).trans (w6_main_arg5 m ρ c)
theorem w8_main_arg5 (c : Dev nD) : W8 m ρ c (Proc.devRef .tc main_arg5) = (m ((c : Thread nD τ).loc main_arg5)) :=
  (W8_of_ne m ρ c main_arg5 (by decide)).trans (w7_main_arg5 m ρ c)
theorem w0_main_arg6 (c : Dev nD) : W0 m ρ c (Proc.devRef .tc main_arg6) = (m ((c : Thread nD τ).loc main_arg6)) := rfl
theorem w1_main_arg6 (c : Dev nD) : W1 m ρ c (Proc.devRef .tc main_arg6) = (m ((c : Thread nD τ).loc main_arg6)) :=
  (Host.keep_hostOps0_main_arg6 (W0 m ρ c)).trans (w0_main_arg6 m ρ c)
theorem w2_main_arg6 (c : Dev nD) : W2 m ρ c (Proc.devRef .tc main_arg6) = (m ((c : Thread nD τ).loc main_arg6)) :=
  (Host.keep_hostOps0_1_main_arg6 (W1 m ρ c)).trans (w1_main_arg6 m ρ c)
theorem w3_main_arg6 (c : Dev nD) : W3 m ρ c (Proc.devRef .tc main_arg6) = (m ((c : Thread nD τ).loc main_arg6)) :=
  (Host.keep_hostOps0_2_main_arg6 (W2 m ρ c)).trans (w2_main_arg6 m ρ c)
theorem w4_main_arg6 (c : Dev nD) : W4 m ρ c (Proc.devRef .tc main_arg6) = (m ((c : Thread nD τ).loc main_arg6)) :=
  (W4_of_ne m ρ c main_arg6 (by decide)).trans (w3_main_arg6 m ρ c)
theorem w5_main_arg6 (c : Dev nD) : W5 m ρ c (Proc.devRef .tc main_arg6) = (m ((c : Thread nD τ).loc main_arg6)) :=
  (Host.keep_hostOps1_main_arg6 (W4 m ρ c)).trans (w4_main_arg6 m ρ c)
theorem w6_main_arg6 (c : Dev nD) : W6 m ρ c (Proc.devRef .tc main_arg6) = (m ((c : Thread nD τ).loc main_arg6)) :=
  (W6_of_ne m ρ c main_arg6 (by decide)).trans (w5_main_arg6 m ρ c)
theorem w7_main_arg6 (c : Dev nD) : W7 m ρ c (Proc.devRef .tc main_arg6) = (m ((c : Thread nD τ).loc main_arg6)) :=
  (Host.keep_hostOps2_main_arg6 (W6 m ρ c)).trans (w6_main_arg6 m ρ c)
theorem w8_main_arg6 (c : Dev nD) : W8 m ρ c (Proc.devRef .tc main_arg6) = (m ((c : Thread nD τ).loc main_arg6)) :=
  (W8_of_ne m ρ c main_arg6 (by decide)).trans (w7_main_arg6 m ρ c)
theorem w0_main_arg2 (c : Dev nD) : W0 m ρ c (Proc.devRef .tc main_arg2) = (m ((c : Thread nD τ).loc main_arg2)) := rfl
theorem w1_main_arg2 (c : Dev nD) : W1 m ρ c (Proc.devRef .tc main_arg2) = (m ((c : Thread nD τ).loc main_arg2)) :=
  (Host.keep_hostOps0_main_arg2 (W0 m ρ c)).trans (w0_main_arg2 m ρ c)
theorem w2_main_arg2 (c : Dev nD) : W2 m ρ c (Proc.devRef .tc main_arg2) = (m ((c : Thread nD τ).loc main_arg2)) :=
  (Host.keep_hostOps0_1_main_arg2 (W1 m ρ c)).trans (w1_main_arg2 m ρ c)
theorem w3_main_arg2 (c : Dev nD) : W3 m ρ c (Proc.devRef .tc main_arg2) = (m ((c : Thread nD τ).loc main_arg2)) :=
  (Host.keep_hostOps0_2_main_arg2 (W2 m ρ c)).trans (w2_main_arg2 m ρ c)
theorem w4_main_arg2 (c : Dev nD) : W4 m ρ c (Proc.devRef .tc main_arg2) = (m ((c : Thread nD τ).loc main_arg2)) :=
  (W4_of_ne m ρ c main_arg2 (by decide)).trans (w3_main_arg2 m ρ c)
theorem w5_main_arg2 (c : Dev nD) : W5 m ρ c (Proc.devRef .tc main_arg2) = (m ((c : Thread nD τ).loc main_arg2)) :=
  (Host.keep_hostOps1_main_arg2 (W4 m ρ c)).trans (w4_main_arg2 m ρ c)
theorem w6_main_arg2 (c : Dev nD) : W6 m ρ c (Proc.devRef .tc main_arg2) = (m ((c : Thread nD τ).loc main_arg2)) :=
  (W6_of_ne m ρ c main_arg2 (by decide)).trans (w5_main_arg2 m ρ c)
theorem w7_main_arg2 (c : Dev nD) : W7 m ρ c (Proc.devRef .tc main_arg2) = (m ((c : Thread nD τ).loc main_arg2)) :=
  (Host.keep_hostOps2_main_arg2 (W6 m ρ c)).trans (w6_main_arg2 m ρ c)
theorem w8_main_arg2 (c : Dev nD) : W8 m ρ c (Proc.devRef .tc main_arg2) = (m ((c : Thread nD τ).loc main_arg2)) :=
  (W8_of_ne m ρ c main_arg2 (by decide)).trans (w7_main_arg2 m ρ c)
theorem w9_main_arg2 (c : Dev nD) : W9 m ρ c (Proc.devRef .tc main_arg2) = (m ((c : Thread nD τ).loc main_arg2)) :=
  (Host.keep_hostOps3_main_arg2 (W8 m ρ c)).trans (w8_main_arg2 m ρ c)
theorem w10_main_arg2 (c : Dev nD) : W10 m ρ c (Proc.devRef .tc main_arg2) = (m ((c : Thread nD τ).loc main_arg2)) :=
  (W10_of_ne m ρ c main_arg2 (by decide)).trans (w9_main_arg2 m ρ c)
theorem w11_main_arg2 (c : Dev nD) : W11 m ρ c (Proc.devRef .tc main_arg2) = (m ((c : Thread nD τ).loc main_arg2)) :=
  (Host.keep_hostOps4_main_arg2 (W10 m ρ c)).trans (w10_main_arg2 m ρ c)
theorem w12_main_arg2 (c : Dev nD) : W12 m ρ c (Proc.devRef .tc main_arg2) = (m ((c : Thread nD τ).loc main_arg2)) :=
  (W12_of_ne m ρ c main_arg2 (by decide)).trans (w11_main_arg2 m ρ c)
theorem w0_main_arg7 (c : Dev nD) : W0 m ρ c (Proc.devRef .tc main_arg7) = (m ((c : Thread nD τ).loc main_arg7)) := rfl
theorem w1_main_arg7 (c : Dev nD) : W1 m ρ c (Proc.devRef .tc main_arg7) = (m ((c : Thread nD τ).loc main_arg7)) :=
  (Host.keep_hostOps0_main_arg7 (W0 m ρ c)).trans (w0_main_arg7 m ρ c)
theorem w2_main_arg7 (c : Dev nD) : W2 m ρ c (Proc.devRef .tc main_arg7) = (m ((c : Thread nD τ).loc main_arg7)) :=
  (Host.keep_hostOps0_1_main_arg7 (W1 m ρ c)).trans (w1_main_arg7 m ρ c)
theorem w3_main_arg7 (c : Dev nD) : W3 m ρ c (Proc.devRef .tc main_arg7) = (m ((c : Thread nD τ).loc main_arg7)) :=
  (Host.keep_hostOps0_2_main_arg7 (W2 m ρ c)).trans (w2_main_arg7 m ρ c)
theorem w4_main_arg7 (c : Dev nD) : W4 m ρ c (Proc.devRef .tc main_arg7) = (m ((c : Thread nD τ).loc main_arg7)) :=
  (W4_of_ne m ρ c main_arg7 (by decide)).trans (w3_main_arg7 m ρ c)
theorem w5_main_arg7 (c : Dev nD) : W5 m ρ c (Proc.devRef .tc main_arg7) = (m ((c : Thread nD τ).loc main_arg7)) :=
  (Host.keep_hostOps1_main_arg7 (W4 m ρ c)).trans (w4_main_arg7 m ρ c)
theorem w6_main_arg7 (c : Dev nD) : W6 m ρ c (Proc.devRef .tc main_arg7) = (m ((c : Thread nD τ).loc main_arg7)) :=
  (W6_of_ne m ρ c main_arg7 (by decide)).trans (w5_main_arg7 m ρ c)
theorem w7_main_arg7 (c : Dev nD) : W7 m ρ c (Proc.devRef .tc main_arg7) = (m ((c : Thread nD τ).loc main_arg7)) :=
  (Host.keep_hostOps2_main_arg7 (W6 m ρ c)).trans (w6_main_arg7 m ρ c)
theorem w8_main_arg7 (c : Dev nD) : W8 m ρ c (Proc.devRef .tc main_arg7) = (m ((c : Thread nD τ).loc main_arg7)) :=
  (W8_of_ne m ρ c main_arg7 (by decide)).trans (w7_main_arg7 m ρ c)
theorem w9_main_arg7 (c : Dev nD) : W9 m ρ c (Proc.devRef .tc main_arg7) = (m ((c : Thread nD τ).loc main_arg7)) :=
  (Host.keep_hostOps3_main_arg7 (W8 m ρ c)).trans (w8_main_arg7 m ρ c)
theorem w10_main_arg7 (c : Dev nD) : W10 m ρ c (Proc.devRef .tc main_arg7) = (m ((c : Thread nD τ).loc main_arg7)) :=
  (W10_of_ne m ρ c main_arg7 (by decide)).trans (w9_main_arg7 m ρ c)
theorem w11_main_arg7 (c : Dev nD) : W11 m ρ c (Proc.devRef .tc main_arg7) = (m ((c : Thread nD τ).loc main_arg7)) :=
  (Host.keep_hostOps4_main_arg7 (W10 m ρ c)).trans (w10_main_arg7 m ρ c)
theorem w12_main_arg7 (c : Dev nD) : W12 m ρ c (Proc.devRef .tc main_arg7) = (m ((c : Thread nD τ).loc main_arg7)) :=
  (W12_of_ne m ρ c main_arg7 (by decide)).trans (w11_main_arg7 m ρ c)
theorem w13_main_arg7 (c : Dev nD) : W13 m ρ c (Proc.devRef .tc main_arg7) = (m ((c : Thread nD τ).loc main_arg7)) :=
  (Host.keep_hostOps5_main_arg7 (W12 m ρ c)).trans (w12_main_arg7 m ρ c)
theorem w0_main_arg8 (c : Dev nD) : W0 m ρ c (Proc.devRef .tc main_arg8) = (m ((c : Thread nD τ).loc main_arg8)) := rfl
theorem w1_main_arg8 (c : Dev nD) : W1 m ρ c (Proc.devRef .tc main_arg8) = (m ((c : Thread nD τ).loc main_arg8)) :=
  (Host.keep_hostOps0_main_arg8 (W0 m ρ c)).trans (w0_main_arg8 m ρ c)
theorem w2_main_arg8 (c : Dev nD) : W2 m ρ c (Proc.devRef .tc main_arg8) = (m ((c : Thread nD τ).loc main_arg8)) :=
  (Host.keep_hostOps0_1_main_arg8 (W1 m ρ c)).trans (w1_main_arg8 m ρ c)
theorem w3_main_arg8 (c : Dev nD) : W3 m ρ c (Proc.devRef .tc main_arg8) = (m ((c : Thread nD τ).loc main_arg8)) :=
  (Host.keep_hostOps0_2_main_arg8 (W2 m ρ c)).trans (w2_main_arg8 m ρ c)
theorem w4_main_arg8 (c : Dev nD) : W4 m ρ c (Proc.devRef .tc main_arg8) = (m ((c : Thread nD τ).loc main_arg8)) :=
  (W4_of_ne m ρ c main_arg8 (by decide)).trans (w3_main_arg8 m ρ c)
theorem w5_main_arg8 (c : Dev nD) : W5 m ρ c (Proc.devRef .tc main_arg8) = (m ((c : Thread nD τ).loc main_arg8)) :=
  (Host.keep_hostOps1_main_arg8 (W4 m ρ c)).trans (w4_main_arg8 m ρ c)
theorem w6_main_arg8 (c : Dev nD) : W6 m ρ c (Proc.devRef .tc main_arg8) = (m ((c : Thread nD τ).loc main_arg8)) :=
  (W6_of_ne m ρ c main_arg8 (by decide)).trans (w5_main_arg8 m ρ c)
theorem w7_main_arg8 (c : Dev nD) : W7 m ρ c (Proc.devRef .tc main_arg8) = (m ((c : Thread nD τ).loc main_arg8)) :=
  (Host.keep_hostOps2_main_arg8 (W6 m ρ c)).trans (w6_main_arg8 m ρ c)
theorem w8_main_arg8 (c : Dev nD) : W8 m ρ c (Proc.devRef .tc main_arg8) = (m ((c : Thread nD τ).loc main_arg8)) :=
  (W8_of_ne m ρ c main_arg8 (by decide)).trans (w7_main_arg8 m ρ c)
theorem w9_main_arg8 (c : Dev nD) : W9 m ρ c (Proc.devRef .tc main_arg8) = (m ((c : Thread nD τ).loc main_arg8)) :=
  (Host.keep_hostOps3_main_arg8 (W8 m ρ c)).trans (w8_main_arg8 m ρ c)
theorem w10_main_arg8 (c : Dev nD) : W10 m ρ c (Proc.devRef .tc main_arg8) = (m ((c : Thread nD τ).loc main_arg8)) :=
  (W10_of_ne m ρ c main_arg8 (by decide)).trans (w9_main_arg8 m ρ c)
theorem w11_main_arg8 (c : Dev nD) : W11 m ρ c (Proc.devRef .tc main_arg8) = (m ((c : Thread nD τ).loc main_arg8)) :=
  (Host.keep_hostOps4_main_arg8 (W10 m ρ c)).trans (w10_main_arg8 m ρ c)
theorem w12_main_arg8 (c : Dev nD) : W12 m ρ c (Proc.devRef .tc main_arg8) = (m ((c : Thread nD τ).loc main_arg8)) :=
  (W12_of_ne m ρ c main_arg8 (by decide)).trans (w11_main_arg8 m ρ c)
theorem w13_main_arg8 (c : Dev nD) : W13 m ρ c (Proc.devRef .tc main_arg8) = (m ((c : Thread nD τ).loc main_arg8)) :=
  (Host.keep_hostOps5_main_arg8 (W12 m ρ c)).trans (w12_main_arg8 m ρ c)

/-! ## Before the first launch: the edge lists and the edge weights -/

theorem w1_main_v3 (c : Dev nD) : W1 m ρ c (Proc.devRef .tc main_v3) = Cert.ReferenceIdeal.Read.val_main_v3 (F := Ideal) (m ((c : Thread nD τ).loc main_arg1)) := Host.rows0 (W0 m ρ c)
theorem w1_main_v6 (c : Dev nD) : W1 m ρ c (Proc.devRef .tc main_v6) = Cert.ReferenceIdeal.Read.val_main_v6 (F := Ideal) (m ((c : Thread nD τ).loc main_arg1)) := Host.cols0 (W0 m ρ c)
theorem w1_main_v12 (c : Dev nD) : W1 m ρ c (Proc.devRef .tc main_v12) = Cert.ReferenceIdeal.Read.val_main_v12 (F := Ideal) (m ((c : Thread nD τ).loc main_arg1)) := Host.degpos0 (W0 m ρ c)
theorem w1_main_v13 (c : Dev nD) : W1 m ρ c (Proc.devRef .tc main_v13) = Cert.ReferenceIdeal.Read.val_main_v13 (F := Ideal) (m ((c : Thread nD τ).loc main_arg1)) := Host.rsqrt0 (W0 m ρ c)
theorem w1_main_cst_2 (c : Dev nD) : W1 m ρ c (Proc.devRef .tc main_cst_2) = Cert.ReferenceIdeal.Read.val_main_cst_2 (F := Ideal) := Host.zero0 (W0 m ρ c)
theorem w2_main_v14 (c : Dev nD) : W2 m ρ c (Proc.devRef .tc main_v14) = Cert.ReferenceIdeal.Read.val_main_v14 (F := Ideal) (m ((c : Thread nD τ).loc main_arg1)) :=
  Host.dinv0 (W1 m ρ c) (m ((c : Thread nD τ).loc main_arg1)) (w1_main_v12 m ρ c) (w1_main_v13 m ρ c) (w1_main_cst_2 m ρ c)
theorem w2_main_v3 (c : Dev nD) : W2 m ρ c (Proc.devRef .tc main_v3) = Cert.ReferenceIdeal.Read.val_main_v3 (F := Ideal) (m ((c : Thread nD τ).loc main_arg1)) :=
  (Host.keep_hostOps0_1_main_v3 (W1 m ρ c)).trans (w1_main_v3 m ρ c)
theorem w2_main_v6 (c : Dev nD) : W2 m ρ c (Proc.devRef .tc main_v6) = Cert.ReferenceIdeal.Read.val_main_v6 (F := Ideal) (m ((c : Thread nD τ).loc main_arg1)) :=
  (Host.keep_hostOps0_1_main_v6 (W1 m ρ c)).trans (w1_main_v6 m ρ c)

theorem w3_main_v29 (c : Dev nD) : W3 m ρ c (Proc.devRef .tc main_v29) = Cert.ReferenceIdeal.Read.val_main_v29 (F := Ideal) (m ((c : Thread nD τ).loc main_arg1)) :=
  Host.norm0 (W2 m ρ c) (m ((c : Thread nD τ).loc main_arg1)) (w2_main_v14 m ρ c) (w2_main_v3 m ρ c) (w2_main_v6 m ρ c)
theorem w3_main_v3 (c : Dev nD) : W3 m ρ c (Proc.devRef .tc main_v3) = Cert.ReferenceIdeal.Read.val_main_v3 (F := Ideal) (m ((c : Thread nD τ).loc main_arg1)) :=
  (Host.keep_hostOps0_2_main_v3 (W2 m ρ c)).trans (w2_main_v3 m ρ c)
theorem w4_main_v3 (c : Dev nD) : W4 m ρ c (Proc.devRef .tc main_v3) = Cert.ReferenceIdeal.Read.val_main_v3 (F := Ideal) (m ((c : Thread nD τ).loc main_arg1)) :=
  (W4_of_ne m ρ c main_v3 (by decide)).trans (w3_main_v3 m ρ c)
theorem w5_main_v3 (c : Dev nD) : W5 m ρ c (Proc.devRef .tc main_v3) = Cert.ReferenceIdeal.Read.val_main_v3 (F := Ideal) (m ((c : Thread nD τ).loc main_arg1)) :=
  (Host.keep_hostOps1_main_v3 (W4 m ρ c)).trans (w4_main_v3 m ρ c)
theorem w6_main_v3 (c : Dev nD) : W6 m ρ c (Proc.devRef .tc main_v3) = Cert.ReferenceIdeal.Read.val_main_v3 (F := Ideal) (m ((c : Thread nD τ).loc main_arg1)) :=
  (W6_of_ne m ρ c main_v3 (by decide)).trans (w5_main_v3 m ρ c)
theorem w7_main_v3 (c : Dev nD) : W7 m ρ c (Proc.devRef .tc main_v3) = Cert.ReferenceIdeal.Read.val_main_v3 (F := Ideal) (m ((c : Thread nD τ).loc main_arg1)) :=
  (Host.keep_hostOps2_main_v3 (W6 m ρ c)).trans (w6_main_v3 m ρ c)
theorem w8_main_v3 (c : Dev nD) : W8 m ρ c (Proc.devRef .tc main_v3) = Cert.ReferenceIdeal.Read.val_main_v3 (F := Ideal) (m ((c : Thread nD τ).loc main_arg1)) :=
  (W8_of_ne m ρ c main_v3 (by decide)).trans (w7_main_v3 m ρ c)
theorem w9_main_v3 (c : Dev nD) : W9 m ρ c (Proc.devRef .tc main_v3) = Cert.ReferenceIdeal.Read.val_main_v3 (F := Ideal) (m ((c : Thread nD τ).loc main_arg1)) :=
  (Host.keep_hostOps3_main_v3 (W8 m ρ c)).trans (w8_main_v3 m ρ c)
theorem w10_main_v3 (c : Dev nD) : W10 m ρ c (Proc.devRef .tc main_v3) = Cert.ReferenceIdeal.Read.val_main_v3 (F := Ideal) (m ((c : Thread nD τ).loc main_arg1)) :=
  (W10_of_ne m ρ c main_v3 (by decide)).trans (w9_main_v3 m ρ c)
theorem w3_main_v6 (c : Dev nD) : W3 m ρ c (Proc.devRef .tc main_v6) = Cert.ReferenceIdeal.Read.val_main_v6 (F := Ideal) (m ((c : Thread nD τ).loc main_arg1)) :=
  (Host.keep_hostOps0_2_main_v6 (W2 m ρ c)).trans (w2_main_v6 m ρ c)
theorem w4_main_v6 (c : Dev nD) : W4 m ρ c (Proc.devRef .tc main_v6) = Cert.ReferenceIdeal.Read.val_main_v6 (F := Ideal) (m ((c : Thread nD τ).loc main_arg1)) :=
  (W4_of_ne m ρ c main_v6 (by decide)).trans (w3_main_v6 m ρ c)
theorem w5_main_v6 (c : Dev nD) : W5 m ρ c (Proc.devRef .tc main_v6) = Cert.ReferenceIdeal.Read.val_main_v6 (F := Ideal) (m ((c : Thread nD τ).loc main_arg1)) :=
  (Host.keep_hostOps1_main_v6 (W4 m ρ c)).trans (w4_main_v6 m ρ c)
theorem w6_main_v6 (c : Dev nD) : W6 m ρ c (Proc.devRef .tc main_v6) = Cert.ReferenceIdeal.Read.val_main_v6 (F := Ideal) (m ((c : Thread nD τ).loc main_arg1)) :=
  (W6_of_ne m ρ c main_v6 (by decide)).trans (w5_main_v6 m ρ c)
theorem w7_main_v6 (c : Dev nD) : W7 m ρ c (Proc.devRef .tc main_v6) = Cert.ReferenceIdeal.Read.val_main_v6 (F := Ideal) (m ((c : Thread nD τ).loc main_arg1)) :=
  (Host.keep_hostOps2_main_v6 (W6 m ρ c)).trans (w6_main_v6 m ρ c)
theorem w8_main_v6 (c : Dev nD) : W8 m ρ c (Proc.devRef .tc main_v6) = Cert.ReferenceIdeal.Read.val_main_v6 (F := Ideal) (m ((c : Thread nD τ).loc main_arg1)) :=
  (W8_of_ne m ρ c main_v6 (by decide)).trans (w7_main_v6 m ρ c)
theorem w9_main_v6 (c : Dev nD) : W9 m ρ c (Proc.devRef .tc main_v6) = Cert.ReferenceIdeal.Read.val_main_v6 (F := Ideal) (m ((c : Thread nD τ).loc main_arg1)) :=
  (Host.keep_hostOps3_main_v6 (W8 m ρ c)).trans (w8_main_v6 m ρ c)
theorem w10_main_v6 (c : Dev nD) : W10 m ρ c (Proc.devRef .tc main_v6) = Cert.ReferenceIdeal.Read.val_main_v6 (F := Ideal) (m ((c : Thread nD τ).loc main_arg1)) :=
  (W10_of_ne m ρ c main_v6 (by decide)).trans (w9_main_v6 m ρ c)
theorem w4_main_v29 (c : Dev nD) : W4 m ρ c (Proc.devRef .tc main_v29) = Cert.ReferenceIdeal.Read.val_main_v29 (F := Ideal) (m ((c : Thread nD τ).loc main_arg1)) :=
  (W4_of_ne m ρ c main_v29 (by decide)).trans (w3_main_v29 m ρ c)
theorem w5_main_v29 (c : Dev nD) : W5 m ρ c (Proc.devRef .tc main_v29) = Cert.ReferenceIdeal.Read.val_main_v29 (F := Ideal) (m ((c : Thread nD τ).loc main_arg1)) :=
  (Host.keep_hostOps1_main_v29 (W4 m ρ c)).trans (w4_main_v29 m ρ c)
theorem w6_main_v29 (c : Dev nD) : W6 m ρ c (Proc.devRef .tc main_v29) = Cert.ReferenceIdeal.Read.val_main_v29 (F := Ideal) (m ((c : Thread nD τ).loc main_arg1)) :=
  (W6_of_ne m ρ c main_v29 (by decide)).trans (w5_main_v29 m ρ c)
theorem w7_main_v29 (c : Dev nD) : W7 m ρ c (Proc.devRef .tc main_v29) = Cert.ReferenceIdeal.Read.val_main_v29 (F := Ideal) (m ((c : Thread nD τ).loc main_arg1)) :=
  (Host.keep_hostOps2_main_v29 (W6 m ρ c)).trans (w6_main_v29 m ρ c)
theorem w8_main_v29 (c : Dev nD) : W8 m ρ c (Proc.devRef .tc main_v29) = Cert.ReferenceIdeal.Read.val_main_v29 (F := Ideal) (m ((c : Thread nD τ).loc main_arg1)) :=
  (W8_of_ne m ρ c main_v29 (by decide)).trans (w7_main_v29 m ρ c)
theorem w9_main_v29 (c : Dev nD) : W9 m ρ c (Proc.devRef .tc main_v29) = Cert.ReferenceIdeal.Read.val_main_v29 (F := Ideal) (m ((c : Thread nD τ).loc main_arg1)) :=
  (Host.keep_hostOps3_main_v29 (W8 m ρ c)).trans (w8_main_v29 m ρ c)
theorem w10_main_v29 (c : Dev nD) : W10 m ρ c (Proc.devRef .tc main_v29) = Cert.ReferenceIdeal.Read.val_main_v29 (F := Ideal) (m ((c : Thread nD τ).loc main_arg1)) :=
  (W10_of_ne m ρ c main_v29 (by decide)).trans (w9_main_v29 m ρ c)

/-! ## The encoder -/

theorem w4_main_v30 (c : Dev nD) : W4 m ρ c (Proc.devRef .tc main_v30) = Cert.ReferenceIdeal.Read.val_main_v33 (F := Ideal) (m ((c : Thread nD τ).loc main_arg0)) (m ((c : Thread nD τ).loc main_arg3)) (m ((c : Thread nD τ).loc main_arg4)) := by
  refine (W4_arr m ρ c 3).trans ((Region0.out_eq (V3 m ρ) c).trans ?_)
  show Gcn.affine (W3 m ρ c (Proc.devRef .tc main_arg0)) (W3 m ρ c (Proc.devRef .tc main_arg3)) (W3 m ρ c (Proc.devRef .tc main_arg4)) = _
  rw [w3_main_arg0 m ρ c, w3_main_arg3 m ρ c, w3_main_arg4 m ρ c]
  simp only [Cert.ReferenceIdeal.Read.val_main_v33, Cert.ReferenceIdeal.Read.val_main_v30, Cert.ReferenceIdeal.Read.val_main_v32, Cert.ReferenceIdeal.Read.val_main_v31]
  exact (Gcn.hostAffine Cert.ReferenceIdeal.dot_S50000x256_S256x256_S50000x256_1_0_0_1_n_n.wf _ _ _ _ _).symm
theorem w5_main_v30 (c : Dev nD) : W5 m ρ c (Proc.devRef .tc main_v30) = Cert.ReferenceIdeal.Read.val_main_v33 (F := Ideal) (m ((c : Thread nD τ).loc main_arg0)) (m ((c : Thread nD τ).loc main_arg3)) (m ((c : Thread nD τ).loc main_arg4)) :=
  (Host.keep_hostOps1_main_v30 (W4 m ρ c)).trans (w4_main_v30 m ρ c)

/-! ## The first graph layer -/

theorem w5_main_v32 (c : Dev nD) : W5 m ρ c (Proc.devRef .tc main_v32) = Cert.ReferenceIdeal.Read.val_main_v35 (F := Ideal) (m ((c : Thread nD τ).loc main_arg5)) :=
  (Host.weights1 (W4 m ρ c)).trans (congrArg (Cert.ReferenceIdeal.Read.val_main_v35 (F := Ideal)) (w4_main_arg5 m ρ c))
theorem w5_main_v34 (c : Dev nD) : W5 m ρ c (Proc.devRef .tc main_v34) = Cert.ReferenceIdeal.Read.val_main_v37 (F := Ideal) (m ((c : Thread nD τ).loc main_arg6)) :=
  (Host.bias1 (W4 m ρ c)).trans (congrArg (Cert.ReferenceIdeal.Read.val_main_v37 (F := Ideal)) (w4_main_arg6 m ρ c))
theorem w6_main_v34 (c : Dev nD) : W6 m ρ c (Proc.devRef .tc main_v34) = Cert.ReferenceIdeal.Read.val_main_v37 (F := Ideal) (m ((c : Thread nD τ).loc main_arg6)) :=
  (W6_of_ne m ρ c main_v34 (by decide)).trans (w5_main_v34 m ρ c)
theorem w7_main_v34 (c : Dev nD) : W7 m ρ c (Proc.devRef .tc main_v34) = Cert.ReferenceIdeal.Read.val_main_v37 (F := Ideal) (m ((c : Thread nD τ).loc main_arg6)) :=
  (Host.keep_hostOps2_main_v34 (W6 m ρ c)).trans (w6_main_v34 m ρ c)

theorem w6_main_v35 (c : Dev nD) : W6 m ρ c (Proc.devRef .tc main_v35) = Cert.ReferenceIdeal.Read.val_main_v38 (F := Ideal) (m ((c : Thread nD τ).loc main_arg0)) (m ((c : Thread nD τ).loc main_arg3)) (m ((c : Thread nD τ).loc main_arg4)) (m ((c : Thread nD τ).loc main_arg5)) := by
  refine (W6_arr m ρ c 2).trans ((Region1.out_eq (V5 m ρ) c).trans ?_)
  show Gcn.product (W5 m ρ c (Proc.devRef .tc main_v30)) (W5 m ρ c (Proc.devRef .tc main_v32)) = _
  rw [w5_main_v30 m ρ c, w5_main_v32 m ρ c]
  simp only [Cert.ReferenceIdeal.Read.val_main_v38]
  exact (Gcn.hostProduct Cert.ReferenceIdeal.dot_S50000x256_S256x256_S50000x256_1_0_0_1_n_n.wf _ _).symm

theorem w7_main_v48 (c : Dev nD) : W7 m ρ c (Proc.devRef .tc main_v48) = Cert.ReferenceIdeal.Read.val_main_v51 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  Host.agg2 (W6 m ρ c) (m ((c : Thread nD τ).loc main_arg0)) (m ((c : Thread nD τ).loc main_arg1)) (m ((c : Thread nD τ).loc main_arg3)) (m ((c : Thread nD τ).loc main_arg4)) (m ((c : Thread nD τ).loc main_arg5)) (w6_main_v35 m ρ c) (w6_main_v3 m ρ c) (w6_main_v6 m ρ c) (w6_main_v29 m ρ c)

theorem w8_main_v49 (c : Dev nD) : W8 m ρ c (Proc.devRef .tc main_v49) = Cert.ReferenceIdeal.Read.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W8_arr m ρ c 2).trans ((Region2.out_eq (V7 m ρ) c).trans ?_)
  show Gcn.biasRelu (W7 m ρ c (Proc.devRef .tc main_v48)) (W7 m ρ c (Proc.devRef .tc main_v34)) = _
  rw [w7_main_v48 m ρ c, w7_main_v34 m ρ c]
  simp only [Cert.ReferenceIdeal.Read.val_main_v55, Cert.ReferenceIdeal.Read.val_main_v54, Cert.ReferenceIdeal.Read.val_main_v53, Cert.ReferenceIdeal.Read.val_main_v52, Cert.ReferenceIdeal.Read.val_main_call1_v0, Cert.ReferenceIdeal.Read.val_main_call1_cst]
  exact (Gcn.hostBiasRelu _ _ _ _ _).symm
theorem w9_main_v49 (c : Dev nD) : W9 m ρ c (Proc.devRef .tc main_v49) = Cert.ReferenceIdeal.Read.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (Host.keep_hostOps3_main_v49 (W8 m ρ c)).trans (w8_main_v49 m ρ c)

/-! ## The second graph layer -/

theorem w9_main_v51 (c : Dev nD) : W9 m ρ c (Proc.devRef .tc main_v51) = Cert.ReferenceIdeal.Read.val_main_v57 (F := Ideal) (m ((c : Thread nD τ).loc main_arg5)) :=
  (Host.weights3 (W8 m ρ c)).trans (congrArg (Cert.ReferenceIdeal.Read.val_main_v57 (F := Ideal)) (w8_main_arg5 m ρ c))
theorem w9_main_v53 (c : Dev nD) : W9 m ρ c (Proc.devRef .tc main_v53) = Cert.ReferenceIdeal.Read.val_main_v59 (F := Ideal) (m ((c : Thread nD τ).loc main_arg6)) :=
  (Host.bias3 (W8 m ρ c)).trans (congrArg (Cert.ReferenceIdeal.Read.val_main_v59 (F := Ideal)) (w8_main_arg6 m ρ c))
theorem w10_main_v53 (c : Dev nD) : W10 m ρ c (Proc.devRef .tc main_v53) = Cert.ReferenceIdeal.Read.val_main_v59 (F := Ideal) (m ((c : Thread nD τ).loc main_arg6)) :=
  (W10_of_ne m ρ c main_v53 (by decide)).trans (w9_main_v53 m ρ c)
theorem w11_main_v53 (c : Dev nD) : W11 m ρ c (Proc.devRef .tc main_v53) = Cert.ReferenceIdeal.Read.val_main_v59 (F := Ideal) (m ((c : Thread nD τ).loc main_arg6)) :=
  (Host.keep_hostOps4_main_v53 (W10 m ρ c)).trans (w10_main_v53 m ρ c)

theorem w10_main_v54 (c : Dev nD) : W10 m ρ c (Proc.devRef .tc main_v54) = Cert.ReferenceIdeal.Read.val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W10_arr m ρ c 2).trans ((Region3.out_eq (V9 m ρ) c).trans ?_)
  show Gcn.product (W9 m ρ c (Proc.devRef .tc main_v49)) (W9 m ρ c (Proc.devRef .tc main_v51)) = _
  rw [w9_main_v49 m ρ c, w9_main_v51 m ρ c]
  simp only [Cert.ReferenceIdeal.Read.val_main_v60]
  exact (Gcn.hostProduct Cert.ReferenceIdeal.dot_S50000x256_S256x256_S50000x256_1_0_0_1_n_n.wf _ _).symm

theorem w11_main_v67 (c : Dev nD) : W11 m ρ c (Proc.devRef .tc main_v67) = Cert.ReferenceIdeal.Read.val_main_v73 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  Host.agg4 (W10 m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (w10_main_v54 m ρ c) (w10_main_v3 m ρ c) (w10_main_v6 m ρ c) (w10_main_v29 m ρ c)

theorem w12_main_v68 (c : Dev nD) : W12 m ρ c (Proc.devRef .tc main_v68) = Cert.ReferenceIdeal.Read.val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W12_arr m ρ c 2).trans ((Region4.out_eq (V11 m ρ) c).trans ?_)
  show Gcn.biasRelu (W11 m ρ c (Proc.devRef .tc main_v67)) (W11 m ρ c (Proc.devRef .tc main_v53)) = _
  rw [w11_main_v67 m ρ c, w11_main_v53 m ρ c]
  simp only [Cert.ReferenceIdeal.Read.val_main_v77, Cert.ReferenceIdeal.Read.val_main_v76, Cert.ReferenceIdeal.Read.val_main_v75, Cert.ReferenceIdeal.Read.val_main_v74, Cert.ReferenceIdeal.Read.val_main_call2_v0, Cert.ReferenceIdeal.Read.val_main_call2_cst]
  exact (Gcn.hostBiasRelu _ _ _ _ _).symm

/-! ## The pool and the read-out -/

theorem w13_main_v80 (c : Dev nD) : W13 m ρ c (Proc.devRef .tc main_v80) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  Host.pool5 (W12 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (w12_main_v68 m ρ c) (w12_main_arg2 m ρ c)

/-- The result buffer after the last launch holds the reference's last stage of the launch arguments. -/
theorem result (c : Dev nD) : W14 m ρ c (Proc.devRef .tc main_v81) = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W14_arr m ρ c 3).trans ((Region5.out_eq (V13 m ρ) c).trans ?_)
  show Gcn.affine (W13 m ρ c (Proc.devRef .tc main_v80)) (W13 m ρ c (Proc.devRef .tc main_arg7)) (W13 m ρ c (Proc.devRef .tc main_arg8)) = _
  rw [w13_main_v80 m ρ c, w13_main_arg7 m ρ c, w13_main_arg8 m ρ c]
  simp only [Cert.ReferenceIdeal.Read.val_main_v93, Cert.ReferenceIdeal.Read.val_main_v90, Cert.ReferenceIdeal.Read.val_main_v92, Cert.ReferenceIdeal.Read.val_main_v91]
  exact (Gcn.hostAffine Cert.ReferenceIdeal.dot_S512x256_S256x10_S512x10_1_0_0_1_n_n.wf _ _ _ _ _).symm

end Cert.KernelIdeal.Chain

end
-- ==== Proof.lean ====
/-
  A two-layer graph convolution network with a mean pool and a linear read-out, computed two ways, and the claim that the two
  agree on the extended reals.

  Both programs build the same graph data on the host: the edge list with a self loop per node, the node degrees by a
  scatter-add of ones, their inverse square roots (zero where the degree is not positive), and per edge the product of the
  two end points' normalisations. Both then compute

    h₀ = x · W_enc + b_enc,
    h_{l+1} = max (segment_sum ((h_l · W_l)[source] · weight, target) + b_l, 0)   for the two layers,
    out = (segment_sum (h₂, graph) / max (count, 1)) · W_out + b_out.

  The kernel computes the four dense products and the two bias-and-clamp steps in six tiled launches (each operand converted
  to a narrower float format on its way into the matrix unit, which is the identity on the extended reals); the reference
  computes them with the host's dot product, broadcast, sum and maximum. Everything else — gathers, scatter-adds, the pool — is
  the same sequence of host operations in both. So no algebraic law is needed, and in particular no finiteness: each launch's
  output array is the same function of its input arrays as the reference's operations (the region modules over the three
  layer functions), and the host stretches compose identically (the host and chain modules). The three frames are the generated
  ones (the reference's is its run with the result dropped), and there is nothing to preserve: the idealized kernel is the
  kernel's own text.
-/
import proofs.«148762_j27951647163108_1_alg».proof.Defs
import proofs.«148762_j27951647163108_1_alg».proof.Proof.Gen.Kernel
import proofs.«148762_j27951647163108_1_alg».proof.Proof.Gen.Kernel.Frame
import proofs.«148762_j27951647163108_1_alg».proof.Proof.Gen.KernelIdeal
import proofs.«148762_j27951647163108_1_alg».proof.Proof.Gen.KernelIdeal.Frame
import proofs.«148762_j27951647163108_1_alg».proof.Proof.Gen.ReferenceIdeal
import proofs.«148762_j27951647163108_1_alg».proof.Proof.Gen.Pre_finite_inputs
import proofs.«148762_j27951647163108_1_alg».proof.Proof.RefRead
import proofs.«148762_j27951647163108_1_alg».proof.Proof.KernelRun
import proofs.«148762_j27951647163108_1_alg».proof.Proof.Chain
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the reference's last stage of those arguments in their
    result buffers: the kernel by following its fourteen segments, the reference by its run. -/
theorem algebraic : Cert.algebraic_KernelIdeal_ReferenceIdeal := by
  intro m ρ m' ρ' _ hagree
  refine ⟨fun c => Cert.ReferenceIdeal.Read.val_main_v93 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result m ρ c), (h c).2⟩)
      (Cert.KernelIdeal.RunValue.run_result m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8⟩ := hagree c
    rw [(h c).1, Cert.ReferenceIdeal.Read.val_main_v93_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
